-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1280x64x64 : Shape := ⟨4, ![4, 1280, 64, 64]⟩
abbrev S16x512 : Shape := ⟨2, ![16, 512]⟩
abbrev S16x64x64 : Shape := ⟨3, ![16, 64, 64]⟩
abbrev S1280x512 : Shape := ⟨2, ![1280, 512]⟩
abbrev S1280 : Shape := ⟨1, ![1280]⟩
abbrev S_ : Shape := ⟨0, ![]⟩

class Facts : Prop where
  bcast_S_S4x1280x64x64 : S_.BroadcastsInDim S4x1280x64x64 (![] : Fin 0 → Fin S4x1280x64x64.rank)
  reducesTo_S4x1280x64x64_S_d0_1_2_3 : S4x1280x64x64.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_
  bcast_S_S16x64x64 : S_.BroadcastsInDim S16x64x64 (![] : Fin 0 → Fin S16x64x64.rank)
  reducesTo_S16x64x64_S_d0_1_2 : S16x64x64.ReducesTo [0, 1, 2] S_
  bcast_S_S1280x512 : S_.BroadcastsInDim S1280x512 (![] : Fin 0 → Fin S1280x512.rank)
  reducesTo_S1280x512_S_d0_1 : S1280x512.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280 .f32) (main_v13 : IVec S_ 1) (main_v16 : IVec S1280x512 1) : IVec S_ 1 :=
  let main_c_5 : IVec S_ 1 := constantI S_ 1 1#1
  let main_v17 : IVec S_ 1 := (fun x v => Host.reduce IntOp.andi x v reducesTo_S1280x512_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  main_v23

def fn {F : FTy → Type} [FloatOps F] (main_arg0 : FVec F S4x1280x64x64 .f32) (main_arg1 : FVec F S16x512 .f32) (main_arg2 : FVec F S16x64x64 .f32) (main_arg3 : FVec F S1280x512 .f32) (main_arg4 : FVec F S1280 .f32) : IVec S_ 1 :=
  let main_v0 : FVec F S4x1280x64x64 .f32 := Host.absf main_arg0
  let main_cst : FVec F S_ .f32 := constant S_ .f32 0x7F800000#32
  let main_v1 : FVec F S4x1280x64x64 .f32 := broadcastInDim S4x1280x64x64 ![] bcast_S_S4x1280x64x64 main_cst
  let main_v2 : IVec S4x1280x64x64 1 := cmpf .olt main_v0 main_v1
  let main_c : IVec S_ 1 := constantI S_ 1 1#1
  let main_v3 : IVec S_ 1 := (fun x v => Host.reduce IntOp.andi x v reducesTo_S4x1280x64x64_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x64x64 .f32 := Host.absf main_arg2
  let main_cst_2 : FVec F S_ .f32 := constant S_ .f32 0x7F800000#32
  let main_v10 : FVec F S16x64x64 .f32 := broadcastInDim S16x64x64 ![] bcast_S_S16x64x64 main_cst_2
  let main_v11 : IVec S16x64x64 1 := cmpf .olt main_v9 main_v10
  let main_c_3 : IVec S_ 1 := constantI S_ 1 1#1
  let main_v12 : IVec S_ 1 := (fun x v => Host.reduce IntOp.andi x v reducesTo_S16x64x64_S_d0_1_2 h_S_) main_v11 main_c_3
  let main_v13 : IVec S_ 1 := andi main_v8 main_v12
  let main_v14 : FVec F S1280x512 .f32 := Host.absf main_arg3
  let main_cst_4 : FVec F S_ .f32 := constant S_ .f32 0x7F800000#32
  let main_v15 : FVec F S1280x512 .f32 := broadcastInDim S1280x512 ![] bcast_S_S1280x512 main_cst_4
  let main_v16 : IVec S1280x512 1 := cmpf .olt main_v14 main_v15
  fn_part1 (F := F) main_arg4 main_v13 main_v16
-- ==== Kernel.lean ====
abbrev S4x1280x64x64 : Shape := ⟨4, ![4, 1280, 64, 64]⟩
abbrev S16x512 : Shape := ⟨2, ![16, 512]⟩
abbrev S16x64x64 : Shape := ⟨3, ![16, 64, 64]⟩
abbrev S1280x512 : Shape := ⟨2, ![1280, 512]⟩
abbrev S1280 : Shape := ⟨1, ![1280]⟩
abbrev S16x4096 : Shape := ⟨2, ![16, 4096]⟩
abbrev S1280x1 : Shape := ⟨2, ![1280, 1]⟩
abbrev S1280x4096 : Shape := ⟨2, ![1280, 4096]⟩
abbrev S1x4096 : Shape := ⟨2, ![1, 4096]⟩
abbrev S1280x16 : Shape := ⟨2, ![1280, 16]⟩
abbrev S1280x64x64 : Shape := ⟨3, ![1280, 64, 64]⟩
abbrev S1x1280x64x64 : Shape := ⟨4, ![1, 1280, 64, 64]⟩

abbrev nBuf : Space → Nat
  | .hbm => 13
  | .vmem => 5
  | .smem => 0
  | _ => 0

abbrev bufTy : (tb : Table) → Fin (tcTables nBuf tb) → BufTy
  | .hbm, ⟨0, _⟩ => ⟨S4x1280x64x64, .f32⟩
  | .hbm, ⟨1, _⟩ => ⟨S16x512, .f32⟩
  | .hbm, ⟨2, _⟩ => ⟨S16x64x64, .f32⟩
  | .hbm, ⟨3, _⟩ => ⟨S1280x512, .f32⟩
  | .hbm, ⟨4, _⟩ => ⟨S1280, .f32⟩
  | .hbm, ⟨5, _⟩ => ⟨S16x4096, .f32⟩
  | .hbm, ⟨6, _⟩ => ⟨S1280x1, .f32⟩
  | .hbm, ⟨7, _⟩ => ⟨S1280x4096, .bf16⟩
  | .hbm, ⟨8, _⟩ => ⟨S1280x4096, .f32⟩
  | .hbm, ⟨9, _⟩ => ⟨S1280x64x64, .f32⟩
  | .hbm, ⟨10, _⟩ => ⟨S1x1280x64x64, .f32⟩
  | .hbm, ⟨11, _⟩ => ⟨S4x1280x64x64, .f32⟩
  | .hbm, ⟨12, _⟩ => ⟨S4x1280x64x64, .f32⟩
  | .local _ .vmem, ⟨0, _⟩ => ⟨S16x512, .f32⟩
  | .local _ .vmem, ⟨1, _⟩ => ⟨S16x4096, .f32⟩
  | .local _ .vmem, ⟨2, _⟩ => ⟨S1280x512, .f32⟩
  | .local _ .vmem, ⟨3, _⟩ => ⟨S1280x1, .f32⟩
  | .local _ .vmem, ⟨4, _⟩ => ⟨S1280x4096, .bf16⟩
  | _, _ => ⟨S4x1280x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16x64x64_S16x4096 : S16x64x64.ShapeCasts S16x4096
  shapeCasts_S1280_S1280x1 : S1280.ShapeCasts S1280x1
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  natLt_1_32 : 1 < 32
  slices_S16x4096_o15_0_S1x4096 : S16x4096.Slices ![15, 0] S1x4096
  slices_S16x4096_o14_0_S1x4096 : S16x4096.Slices ![14, 0] S1x4096
  slices_S16x4096_o13_0_S1x4096 : S16x4096.Slices ![13, 0] S1x4096
  slices_S16x4096_o12_0_S1x4096 : S16x4096.Slices ![12, 0] S1x4096
  slices_S16x4096_o11_0_S1x4096 : S16x4096.Slices ![11, 0] S1x4096
  slices_S16x4096_o10_0_S1x4096 : S16x4096.Slices ![10, 0] S1x4096
  slices_S16x4096_o9_0_S1x4096 : S16x4096.Slices ![9, 0] S1x4096
  slices_S16x4096_o8_0_S1x4096 : S16x4096.Slices ![8, 0] S1x4096
  slices_S16x4096_o7_0_S1x4096 : S16x4096.Slices ![7, 0] S1x4096
  slices_S16x4096_o6_0_S1x4096 : S16x4096.Slices ![6, 0] S1x4096
  slices_S16x4096_o5_0_S1x4096 : S16x4096.Slices ![5, 0] S1x4096
  slices_S16x4096_o4_0_S1x4096 : S16x4096.Slices ![4, 0] S1x4096
  slices_S16x4096_o3_0_S1x4096 : S16x4096.Slices ![3, 0] S1x4096
  slices_S16x4096_o2_0_S1x4096 : S16x4096.Slices ![2, 0] S1x4096
  slices_S16x4096_o1_0_S1x4096 : S16x4096.Slices ![1, 0] S1x4096
  slices_S16x4096_o0_0_S1x4096 : S16x4096.Slices ![0, 0] S1x4096
  concatenates_S1x4096_S1x4096_S1x4096_S1x4096_S1x4096_S1x4096_S1x4096_S1x4096_S1x4096_S1x4096_S1x4096_S1x4096_S1x4096_S1x4096_S1x4096_S1x4096_S16x4096_d0 : Shape.Concatenates [S1x4096, S1x4096, S1x4096, S1x4096, S1x4096, S1x4096, S1x4096, S1x4096, S1x4096, S1x4096, S1x4096, S1x4096, S1x4096, S1x4096, S1x4096, S1x4096] S16x4096 0
  inb_S1280x512_S1280x512_0_0 : ∀ a, (![0, 0] : Fin 2 → Nat) a + S1280x512.size a ≤ S1280x512.size a
  h_S1280x512 : 0 < S1280x512.numel
  inb_S16x512_S16x512_0_0 : ∀ a, (![0, 0] : Fin 2 → Nat) a + S16x512.size a ≤ S16x512.size a
  h_S16x512 : 0 < S16x512.numel
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  broadcasts_S1280x1_S1280x16 : S1280x1.Broadcasts S1280x16
  bitsLt_bf16_f32 : FTy.bits .bf16 < FTy.bits .f32
  inb_S1280x4096_S1280x4096_0_0 : ∀ a, (![0, 0] : Fin 2 → Nat) a + S1280x4096.size a ≤ S1280x4096.size a
  h_S1280x4096 : 0 < S1280x4096.numel
  packedbf16_S1280x4096_S1280x4096_0_0 : (Rect.unit (s := S1280x4096) ![0, 0] S1280x4096.size inb_S1280x4096_S1280x4096_0_0).PackedRows (EltTy.packing .bf16)
  shapeCasts_S1280x4096_S1280x64x64 : S1280x4096.ShapeCasts S1280x64x64
  bcast_S1280x64x64_S1x1280x64x64_1_2_3 : S1280x64x64.BroadcastsInDim S1x1280x64x64 (![1, 2, 3] : Fin 3 → Fin S1x1280x64x64.rank)
  bcast_S1x1280x64x64_S4x1280x64x64_0_1_2_3 : S1x1280x64x64.BroadcastsInDim S4x1280x64x64 (![0, 1, 2, 3] : Fin 4 → Fin S4x1280x64x64.rank)
  dot_S1280x512_S16x512_S1280x16_1_1_0_0_n_n_wf : DotDims.WF S1280x512 S16x512 S1280x16 [1] [1] [0] [0] [] []
  dot_S1280x16_S16x4096_S1280x4096_1_0_0_1_n_n_wf : DotDims.WF S1280x16 S16x4096 S1280x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S16x512.size a
  hwx0_0 : ∀ i : grid0.Coords, EltTy.bits .f32 = 32 ∨ (Rect.block (s := S16x512) S16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x512.size a ≤ S1280x512.size a
  hwx0_2 : ∀ i : grid0.Coords, EltTy.bits .f32 = 32 ∨ (Rect.block (s := S1280x512) S1280x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x1.size a ≤ S1280x1.size a
  hwx0_3 : ∀ i : grid0.Coords, EltTy.bits .f32 = 32 ∨ (Rect.block (s := S1280x1) S1280x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280x4096.size a ≤ S1280x4096.size a
  hwx0_4 : ∀ i : grid0.Coords, EltTy.bits .bf16 = 32 ∨ (Rect.block (s := S1280x4096) S1280x4096.size (cc0_transform_4 i) (hinb0_4 i)).WholeWords (EltTy.packing .bf16)

variable [Facts₀]

def dot_S1280x512_S16x512_S1280x16_1_1_0_0_n_n : DotDims S1280x512 S16x512 S1280x16 where
  lhsContracting := [1]
  rhsContracting := [1]
  lhsNonContracting := [0]
  rhsNonContracting := [0]
  lhsBatch := []
  rhsBatch := []
  wf := dot_S1280x512_S16x512_S1280x16_1_1_0_0_n_n_wf
def dot_S1280x16_S16x4096_S1280x4096_1_0_0_1_n_n : DotDims S1280x16 S16x4096 S1280x4096 where
  lhsContracting := [1]
  rhsContracting := [0]
  lhsNonContracting := [0]
  rhsNonContracting := [1]
  lhsBatch := []
  rhsBatch := []
  wf := dot_S1280x16_S16x4096_S1280x4096_1_0_0_1_n_n_wf

abbrev win0_0 : Pipeline.Window sig grid0 :=
  Pipeline.Window.ofSpec (Memref.whole main_arg1) S16x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1280x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1280x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1280x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1280x64x64 : Shape := ⟨4, ![4, 1280, 64, 64]⟩
abbrev S16x512 : Shape := ⟨2, ![16, 512]⟩
abbrev S16x64x64 : Shape := ⟨3, ![16, 64, 64]⟩
abbrev S1280x512 : Shape := ⟨2, ![1280, 512]⟩
abbrev S1280 : Shape := ⟨1, ![1280]⟩
abbrev S512x1280 : Shape := ⟨2, ![512, 1280]⟩
abbrev S16x1280 : Shape := ⟨2, ![16, 1280]⟩
abbrev S1x1280 : Shape := ⟨2, ![1, 1280]⟩
abbrev S_ : Shape := ⟨0, ![]⟩
abbrev S1x64x64 : Shape := ⟨3, ![1, 64, 64]⟩
abbrev S64x64 : Shape := ⟨2, ![64, 64]⟩
abbrev S1x1x64x64 : Shape := ⟨4, ![1, 1, 64, 64]⟩
abbrev S1x1280x1x1 : Shape := ⟨4, ![1, 1280, 1, 1]⟩

abbrev nBuf : Space → Nat
  | .hbm => 205
  | .vmem => 0
  | .smem => 0
  | _ => 0

abbrev hbmTy0_0 (i : Nat) : BufTy := match i % 128 with
  | 0 => ⟨S4x1280x64x64, .f32⟩
  | 1 => ⟨S16x512, .f32⟩
  | 2 => ⟨S16x64x64, .f32⟩
  | 3 => ⟨S1280x512, .f32⟩
  | 4 => ⟨S1280, .f32⟩
  | 5 => ⟨S512x1280, .f32⟩
  | 6 => ⟨S16x1280, .f32⟩
  | 7 => ⟨S1x1280, .f32⟩
  | 8 => ⟨S16x1280, .f32⟩
  | 9 => ⟨S16x1280, .f32⟩
  | 10 => ⟨S_, .f32⟩
  | 11 => ⟨S4x1280x64x64, .f32⟩
  | 12 => ⟨S1x64x64, .f32⟩
  | 13 => ⟨S64x64, .f32⟩
  | 14 => ⟨S_, .f32⟩
  | 15 => ⟨S64x64, .f32⟩
  | 16 => ⟨S64x64, .i1⟩
  | 17 => ⟨S1x1x64x64, .i1⟩
  | 18 => ⟨S1x1280, .f32⟩
  | 19 => ⟨S1280, .f32⟩
  | 20 => ⟨S1x1280x1x1, .f32⟩
  | 21 => ⟨S4x1280x64x64, .i1⟩
  | 22 => ⟨S4x1280x64x64, .f32⟩
  | 23 => ⟨S4x1280x64x64, .f32⟩
  | 24 => ⟨S1x64x64, .f32⟩
  | 25 => ⟨S64x64, .f32⟩
  | 26 => ⟨S_, .f32⟩
  | 27 => ⟨S64x64, .f32⟩
  | 28 => ⟨S64x64, .i1⟩
  | 29 => ⟨S1x1x64x64, .i1⟩
  | 30 => ⟨S1x1280, .f32⟩
  | 31 => ⟨S1280, .f32⟩
  | 32 => ⟨S1x1280x1x1, .f32⟩
  | 33 => ⟨S4x1280x64x64, .i1⟩
  | 34 => ⟨S4x1280x64x64, .f32⟩
  | 35 => ⟨S4x1280x64x64, .f32⟩
  | 36 => ⟨S1x64x64, .f32⟩
  | 37 => ⟨S64x64, .f32⟩
  | 38 => ⟨S_, .f32⟩
  | 39 => ⟨S64x64, .f32⟩
  | 40 => ⟨S64x64, .i1⟩
  | 41 => ⟨S1x1x64x64, .i1⟩
  | 42 => ⟨S1x1280, .f32⟩
  | 43 => ⟨S1280, .f32⟩
  | 44 => ⟨S1x1280x1x1, .f32⟩
  | 45 => ⟨S4x1280x64x64, .i1⟩
  | 46 => ⟨S4x1280x64x64, .f32⟩
  | 47 => ⟨S4x1280x64x64, .f32⟩
  | 48 => ⟨S1x64x64, .f32⟩
  | 49 => ⟨S64x64, .f32⟩
  | 50 => ⟨S_, .f32⟩
  | 51 => ⟨S64x64, .f32⟩
  | 52 => ⟨S64x64, .i1⟩
  | 53 => ⟨S1x1x64x64, .i1⟩
  | 54 => ⟨S1x1280, .f32⟩
  | 55 => ⟨S1280, .f32⟩
  | 56 => ⟨S1x1280x1x1, .f32⟩
  | 57 => ⟨S4x1280x64x64, .i1⟩
  | 58 => ⟨S4x1280x64x64, .f32⟩
  | 59 => ⟨S4x1280x64x64, .f32⟩
  | 60 => ⟨S1x64x64, .f32⟩
  | 61 => ⟨S64x64, .f32⟩
  | 62 => ⟨S_, .f32⟩
  | 63 => ⟨S64x64, .f32⟩
  | 64 => ⟨S64x64, .i1⟩
  | 65 => ⟨S1x1x64x64, .i1⟩
  | 66 => ⟨S1x1280, .f32⟩
  | 67 => ⟨S1280, .f32⟩
  | 68 => ⟨S1x1280x1x1, .f32⟩
  | 69 => ⟨S4x1280x64x64, .i1⟩
  | 70 => ⟨S4x1280x64x64, .f32⟩
  | 71 => ⟨S4x1280x64x64, .f32⟩
  | 72 => ⟨S1x64x64, .f32⟩
  | 73 => ⟨S64x64, .f32⟩
  | 74 => ⟨S_, .f32⟩
  | 75 => ⟨S64x64, .f32⟩
  | 76 => ⟨S64x64, .i1⟩
  | 77 => ⟨S1x1x64x64, .i1⟩
  | 78 => ⟨S1x1280, .f32⟩
  | 79 => ⟨S1280, .f32⟩
  | 80 => ⟨S1x1280x1x1, .f32⟩
  | 81 => ⟨S4x1280x64x64, .i1⟩
  | 82 => ⟨S4x1280x64x64, .f32⟩
  | 83 => ⟨S4x1280x64x64, .f32⟩
  | 84 => ⟨S1x64x64, .f32⟩
  | 85 => ⟨S64x64, .f32⟩
  | 86 => ⟨S_, .f32⟩
  | 87 => ⟨S64x64, .f32⟩
  | 88 => ⟨S64x64, .i1⟩
  | 89 => ⟨S1x1x64x64, .i1⟩
  | 90 => ⟨S1x1280, .f32⟩
  | 91 => ⟨S1280, .f32⟩
  | 92 => ⟨S1x1280x1x1, .f32⟩
  | 93 => ⟨S4x1280x64x64, .i1⟩
  | 94 => ⟨S4x1280x64x64, .f32⟩
  | 95 => ⟨S4x1280x64x64, .f32⟩
  | 96 => ⟨S1x64x64, .f32⟩
  | 97 => ⟨S64x64, .f32⟩
  | 98 => ⟨S_, .f32⟩
  | 99 => ⟨S64x64, .f32⟩
  | 100 => ⟨S64x64, .i1⟩
  | 101 => ⟨S1x1x64x64, .i1⟩
  | 102 => ⟨S1x1280, .f32⟩
  | 103 => ⟨S1280, .f32⟩
  | 104 => ⟨S1x1280x1x1, .f32⟩
  | 105 => ⟨S4x1280x64x64, .i1⟩
  | 106 => ⟨S4x1280x64x64, .f32⟩
  | 107 => ⟨S4x1280x64x64, .f32⟩
  | 108 => ⟨S1x64x64, .f32⟩
  | 109 => ⟨S64x64, .f32⟩
  | 110 => ⟨S_, .f32⟩
  | 111 => ⟨S64x64, .f32⟩
  | 112 => ⟨S64x64, .i1⟩
  | 113 => ⟨S1x1x64x64, .i1⟩
  | 114 => ⟨S1x1280, .f32⟩
  | 115 => ⟨S1280, .f32⟩
  | 116 => ⟨S1x1280x1x1, .f32⟩
  | 117 => ⟨S4x1280x64x64, .i1⟩
  | 118 => ⟨S4x1280x64x64, .f32⟩
  | 119 => ⟨S4x1280x64x64, .f32⟩
  | 120 => ⟨S1x64x64, .f32⟩
  | 121 => ⟨S64x64, .f32⟩
  | 122 => ⟨S_, .f32⟩
  | 123 => ⟨S64x64, .f32⟩
  | 124 => ⟨S64x64, .i1⟩
  | 125 => ⟨S1x1x64x64, .i1⟩
  | 126 => ⟨S1x1280, .f32⟩
  | 127 => ⟨S1280, .f32⟩
  | _ => ⟨S4x1280x64x64, .f32⟩

abbrev hbmTy0_1 (i : Nat) : BufTy := match i % 128 with
  | 0 => ⟨S1x1280x1x1, .f32⟩
  | 1 => ⟨S4x1280x64x64, .i1⟩
  | 2 => ⟨S4x1280x64x64, .f32⟩
  | 3 => ⟨S4x1280x64x64, .f32⟩
  | 4 => ⟨S1x64x64, .f32⟩
  | 5 => ⟨S64x64, .f32⟩
  | 6 => ⟨S_, .f32⟩
  | 7 => ⟨S64x64, .f32⟩
  | 8 => ⟨S64x64, .i1⟩
  | 9 => ⟨S1x1x64x64, .i1⟩
  | 10 => ⟨S1x1280, .f32⟩
  | 11 => ⟨S1280, .f32⟩
  | 12 => ⟨S1x1280x1x1, .f32⟩
  | 13 => ⟨S4x1280x64x64, .i1⟩
  | 14 => ⟨S4x1280x64x64, .f32⟩
  | 15 => ⟨S4x1280x64x64, .f32⟩
  | 16 => ⟨S1x64x64, .f32⟩
  | 17 => ⟨S64x64, .f32⟩
  | 18 => ⟨S_, .f32⟩
  | 19 => ⟨S64x64, .f32⟩
  | 20 => ⟨S64x64, .i1⟩
  | 21 => ⟨S1x1x64x64, .i1⟩
  | 22 => ⟨S1x1280, .f32⟩
  | 23 => ⟨S1280, .f32⟩
  | 24 => ⟨S1x1280x1x1, .f32⟩
  | 25 => ⟨S4x1280x64x64, .i1⟩
  | 26 => ⟨S4x1280x64x64, .f32⟩
  | 27 => ⟨S4x1280x64x64, .f32⟩
  | 28 => ⟨S1x64x64, .f32⟩
  | 29 => ⟨S64x64, .f32⟩
  | 30 => ⟨S_, .f32⟩
  | 31 => ⟨S64x64, .f32⟩
  | 32 => ⟨S64x64, .i1⟩
  | 33 => ⟨S1x1x64x64, .i1⟩
  | 34 => ⟨S1x1280, .f32⟩
  | 35 => ⟨S1280, .f32⟩
  | 36 => ⟨S1x1280x1x1, .f32⟩
  | 37 => ⟨S4x1280x64x64, .i1⟩
  | 38 => ⟨S4x1280x64x64, .f32⟩
  | 39 => ⟨S4x1280x64x64, .f32⟩
  | 40 => ⟨S1x64x64, .f32⟩
  | 41 => ⟨S64x64, .f32⟩
  | 42 => ⟨S_, .f32⟩
  | 43 => ⟨S64x64, .f32⟩
  | 44 => ⟨S64x64, .i1⟩
  | 45 => ⟨S1x1x64x64, .i1⟩
  | 46 => ⟨S1x1280, .f32⟩
  | 47 => ⟨S1280, .f32⟩
  | 48 => ⟨S1x1280x1x1, .f32⟩
  | 49 => ⟨S4x1280x64x64, .i1⟩
  | 50 => ⟨S4x1280x64x64, .f32⟩
  | 51 => ⟨S4x1280x64x64, .f32⟩
  | 52 => ⟨S1x64x64, .f32⟩
  | 53 => ⟨S64x64, .f32⟩
  | 54 => ⟨S_, .f32⟩
  | 55 => ⟨S64x64, .f32⟩
  | 56 => ⟨S64x64, .i1⟩
  | 57 => ⟨S1x1x64x64, .i1⟩
  | 58 => ⟨S1x1280, .f32⟩
  | 59 => ⟨S1280, .f32⟩
  | 60 => ⟨S1x1280x1x1, .f32⟩
  | 61 => ⟨S4x1280x64x64, .i1⟩
  | 62 => ⟨S4x1280x64x64, .f32⟩
  | 63 => ⟨S4x1280x64x64, .f32⟩
  | 64 => ⟨S1x64x64, .f32⟩
  | 65 => ⟨S64x64, .f32⟩
  | 66 => ⟨S_, .f32⟩
  | 67 => ⟨S64x64, .f32⟩
  | 68 => ⟨S64x64, .i1⟩
  | 69 => ⟨S1x1x64x64, .i1⟩
  | 70 => ⟨S1x1280, .f32⟩
  | 71 => ⟨S1280, .f32⟩
  | 72 => ⟨S1x1280x1x1, .f32⟩
  | 73 => ⟨S4x1280x64x64, .i1⟩
  | 74 => ⟨S4x1280x64x64, .f32⟩
  | 75 => ⟨S4x1280x64x64, .f32⟩
  | 76 => ⟨S4x1280x64x64, .f32⟩
  | _ => ⟨S4x1280x64x64, .f32⟩

abbrev hbmTy (i : Nat) : BufTy := match i / 128 with
  | 0 => hbmTy0_0 i
  | 1 => hbmTy0_1 i
  | _ => ⟨S4x1280x64x64, .f32⟩

abbrev bufTy : (tb : Table) → Fin (tcTables nBuf tb) → BufTy
  | .hbm, ⟨i, _⟩ => hbmTy i
  | _, _ => ⟨S4x1280x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_call1_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call2_v0 : Ref sig .tc := ⟨.hbm, 45, rfl⟩
abbrev main_call2_v1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call3_v0 : Ref sig .tc := ⟨.hbm, 57, rfl⟩
abbrev main_call3_v1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call4_v0 : Ref sig .tc := ⟨.hbm, 69, rfl⟩
abbrev main_call4_v1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call5_v0 : Ref sig .tc := ⟨.hbm, 81, rfl⟩
abbrev main_call5_v1 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call6_v0 : Ref sig .tc := ⟨.hbm, 93, rfl⟩
abbrev main_call6_v1 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call7_v0 : Ref sig .tc := ⟨.hbm, 105, rfl⟩
abbrev main_call7_v1 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_8 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call8_v0 : Ref sig .tc := ⟨.hbm, 117, rfl⟩
abbrev main_call8_v1 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_9 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call9_v0 : Ref sig .tc := ⟨.hbm, 129, rfl⟩
abbrev main_call9_v1 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_10 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_call10_v0 : Ref sig .tc := ⟨.hbm, 141, rfl⟩
abbrev main_call10_v1 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_11 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call11_v0 : Ref sig .tc := ⟨.hbm, 153, rfl⟩
abbrev main_call11_v1 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_12 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call12_v0 : Ref sig .tc := ⟨.hbm, 165, rfl⟩
abbrev main_call12_v1 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_13 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_call13_v0 : Ref sig .tc := ⟨.hbm, 177, rfl⟩
abbrev main_call13_v1 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_14 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_call14_v0 : Ref sig .tc := ⟨.hbm, 189, rfl⟩
abbrev main_call14_v1 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_15 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_call15_v0 : Ref sig .tc := ⟨.hbm, 201, rfl⟩
abbrev main_call15_v1 : Ref sig .tc := ⟨.hbm, 202, rfl⟩
abbrev main_v149 : Ref sig .tc := ⟨.hbm, 203, rfl⟩
abbrev main_v150 : Ref sig .tc := ⟨.hbm, 204, rfl⟩

abbrev nD : Nat := 1
abbrev τ : Topo := Topo.v7x

variable {F : FTy → Type} [FloatOps F]

class Facts₀ : Prop where
  transposes_S1280x512_S512x1280_1_0 : S1280x512.Transposes [1, 0] S512x1280
  bcast_S1280_S1x1280_1 : S1280.BroadcastsInDim S1x1280 (![1] : Fin 1 → Fin S1x1280.rank)
  bcast_S1x1280_S16x1280_0_1 : S1x1280.BroadcastsInDim S16x1280 (![0, 1] : Fin 2 → Fin S16x1280.rank)
  bcast_S_S4x1280x64x64 : S_.BroadcastsInDim S4x1280x64x64 (![] : Fin 0 → Fin S4x1280x64x64.rank)
  slices_S16x64x64_S1x64x64_0_0_0 : S16x64x64.Slices ![0, 0, 0] S1x64x64
  shapeCasts_S1x64x64_S64x64 : S1x64x64.ShapeCasts S64x64
  bcast_S_S64x64 : S_.BroadcastsInDim S64x64 (![] : Fin 0 → Fin S64x64.rank)
  bcast_S64x64_S1x1x64x64_2_3 : S64x64.BroadcastsInDim S1x1x64x64 (![2, 3] : Fin 2 → Fin S1x1x64x64.rank)
  slices_S16x1280_S1x1280_0_0 : S16x1280.Slices ![0, 0] S1x1280
  shapeCasts_S1x1280_S1280 : S1x1280.ShapeCasts S1280
  bcast_S1280_S1x1280x1x1_1 : S1280.BroadcastsInDim S1x1280x1x1 (![1] : Fin 1 → Fin S1x1280x1x1.rank)
  bcast_S1x1x64x64_S4x1280x64x64_0_1_2_3 : S1x1x64x64.BroadcastsInDim S4x1280x64x64 (![0, 1, 2, 3] : Fin 4 → Fin S4x1280x64x64.rank)
  bcast_S1x1280x1x1_S4x1280x64x64_0_1_2_3 : S1x1280x1x1.BroadcastsInDim S4x1280x64x64 (![0, 1, 2, 3] : Fin 4 → Fin S4x1280x64x64.rank)
  slices_S16x64x64_S1x64x64_1_0_0 : S16x64x64.Slices ![1, 0, 0] S1x64x64
  slices_S16x1280_S1x1280_1_0 : S16x1280.Slices ![1, 0] S1x1280
  slices_S16x64x64_S1x64x64_2_0_0 : S16x64x64.Slices ![2, 0, 0] S1x64x64
  slices_S16x1280_S1x1280_2_0 : S16x1280.Slices ![2, 0] S1x1280
  slices_S16x64x64_S1x64x64_3_0_0 : S16x64x64.Slices ![3, 0, 0] S1x64x64
  slices_S16x1280_S1x1280_3_0 : S16x1280.Slices ![3, 0] S1x1280
  slices_S16x64x64_S1x64x64_4_0_0 : S16x64x64.Slices ![4, 0, 0] S1x64x64
  slices_S16x1280_S1x1280_4_0 : S16x1280.Slices ![4, 0] S1x1280
  slices_S16x64x64_S1x64x64_5_0_0 : S16x64x64.Slices ![5, 0, 0] S1x64x64
  slices_S16x1280_S1x1280_5_0 : S16x1280.Slices ![5, 0] S1x1280
  slices_S16x64x64_S1x64x64_6_0_0 : S16x64x64.Slices ![6, 0, 0] S1x64x64
  slices_S16x1280_S1x1280_6_0 : S16x1280.Slices ![6, 0] S1x1280
  slices_S16x64x64_S1x64x64_7_0_0 : S16x64x64.Slices ![7, 0, 0] S1x64x64
  slices_S16x1280_S1x1280_7_0 : S16x1280.Slices ![7, 0] S1x1280
  slices_S16x64x64_S1x64x64_8_0_0 : S16x64x64.Slices ![8, 0, 0] S1x64x64
  slices_S16x1280_S1x1280_8_0 : S16x1280.Slices ![8, 0] S1x1280
  slices_S16x64x64_S1x64x64_9_0_0 : S16x64x64.Slices ![9, 0, 0] S1x64x64
  slices_S16x1280_S1x1280_9_0 : S16x1280.Slices ![9, 0] S1x1280
  slices_S16x64x64_S1x64x64_10_0_0 : S16x64x64.Slices ![10, 0, 0] S1x64x64
  slices_S16x1280_S1x1280_10_0 : S16x1280.Slices ![10, 0] S1x1280
  slices_S16x64x64_S1x64x64_11_0_0 : S16x64x64.Slices ![11, 0, 0] S1x64x64
  slices_S16x1280_S1x1280_11_0 : S16x1280.Slices ![11, 0] S1x1280
  slices_S16x64x64_S1x64x64_12_0_0 : S16x64x64.Slices ![12, 0, 0] S1x64x64
  slices_S16x1280_S1x1280_12_0 : S16x1280.Slices ![12, 0] S1x1280
  slices_S16x64x64_S1x64x64_13_0_0 : S16x64x64.Slices ![13, 0, 0] S1x64x64
  slices_S16x1280_S1x1280_13_0 : S16x1280.Slices ![13, 0] S1x1280
  slices_S16x64x64_S1x64x64_14_0_0 : S16x64x64.Slices ![14, 0, 0] S1x64x64
  slices_S16x1280_S1x1280_14_0 : S16x1280.Slices ![14, 0] S1x1280
  slices_S16x64x64_S1x64x64_15_0_0 : S16x64x64.Slices ![15, 0, 0] S1x64x64
  slices_S16x1280_S1x1280_15_0 : S16x1280.Slices ![15, 0] S1x1280
  dot_S16x512_S512x1280_S16x1280_1_0_0_1_n_n_wf : DotDims.WF S16x512 S512x1280 S16x1280 [1] [0] [0] [1] [] []

variable [Facts₀]

def dot_S16x512_S512x1280_S16x1280_1_0_0_1_n_n : DotDims S16x512 S512x1280 S16x1280 where
  lhsContracting := [1]
  rhsContracting := [0]
  lhsNonContracting := [0]
  rhsNonContracting := [1]
  lhsBatch := []
  rhsBatch := []
  wf := dot_S16x512_S512x1280_S16x1280_1_0_0_1_n_n_wf

class Facts : Prop extends Facts₀ where

variable [Facts]
-- ==== Proof.LibFirstSet.lean ====
/-
  A one-hot weighted sum picks the first set row.

  Rows are listed from the top, each with a one-bit condition `b` and a value `p`. Walking down the list with a
  running weight `s` (the product of `1 - [b]` over the rows already passed, `[b]` the bit as the number 0 or 1),
  row `(b, p)` contributes `p * ([b] * s)`. Since every `[b]` is 0 or 1, the weight is 1 exactly until the first set
  row and 0 after it, so the total is the weight on entry times the value of the first set row (0 if no row is set).
  On the extended reals this needs no finiteness of the values: only `x * 0 = 0`, `x * 1 = x`, `1 - 1 = 0`.
-/
import Idealize.ShloMosaic.PureOps.Ideal
import Idealize.ShloMosaic.Lib.ValueIdx
import Mathlib.Algebra.BigOperators.Fin

noncomputable section

namespace Cert.FirstSet

open Idealize.ShloMosaic Idealize.ShloMosaic.ValueIdx

/-- A one-bit condition as a float: the bit zero-extended to a 32-bit integer and converted, exactly. -/
def bitf (b : BitVec 1) : EReal := FloatOps.sitofp (F := Ideal) .f32 (b.setWidth 32)

theorem bitf_one : bitf 1#1 = 1 := by
  show (((((1#1 : BitVec 1).setWidth 32).toInt : Int) : ℝ) : EReal) = 1
  have h : ((1#1 : BitVec 1).setWidth 32).toInt = 1 := by decide
  rw [h]; norm_num

theorem bitf_zero : bitf 0#1 = 0 := by
  show (((((0#1 : BitVec 1).setWidth 32).toInt : Int) : ℝ) : EReal) = 0
  have h : ((0#1 : BitVec 1).setWidth 32).toInt = 0 := by decide
  rw [h]; norm_num

theorem one_sub_one : (1 : EReal) - 1 = 0 := by
  rw [← EReal.coe_one, ← EReal.coe_sub, sub_self, EReal.coe_zero]

/-- The weighted sum of the rows, from the top, entered with weight `s`; later rows are added first. -/
def weighted : List (BitVec 1 × EReal) → EReal → EReal
  | [], _ => 0
  | (b, p) :: l, s => weighted l (s * (1 - bitf b)) + p * (bitf b * s)

/-- The value of the first row whose condition is set; 0 if none is. -/
def firstSet : List (BitVec 1 × EReal) → EReal
  | [] => 0
  | (b, p) :: l => Scalar.select b p (firstSet l)

/-- The weighted sum is the entry weight times the first set row's value. -/
theorem weighted_eq (l : List (BitVec 1 × EReal)) (s : EReal) : weighted l s = s * firstSet l := by
  induction l generalizing s with
  | nil => simp [weighted, firstSet]
  | cons x l ih =>
    obtain ⟨b, p⟩ := x
    rw [weighted, firstSet, ih]
    by_cases hb : b = 1#1
    · subst hb
      rw [select_one, bitf_one, one_sub_one, mul_zero, zero_mul, zero_add, one_mul, mul_comm]
    · have h0 := eq_zero_of_ne_one hb
      subst h0
      rw [select_zero, bitf_zero, zero_mul, mul_zero, add_zero, sub_zero, mul_one]

/-- Entered with weight 1, the weighted sum is the first set row's value. -/
theorem weighted_one (l : List (BitVec 1 × EReal)) : weighted l 1 = firstSet l := by
  rw [weighted_eq, one_mul]

/-- A sum over sixteen indices, written out in increasing order. -/
theorem sum_univ_sixteen {M : Type*} [AddCommMonoid M] (f : Fin 16 → M) :
    ∑ i, f i = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_eight]
  rfl

end Cert.FirstSet

end
-- ==== Proof.Spec.lean ====
/-
  The specification: what both programs compute, as one function of the five argument arrays.

  `proj j c = (∑ k, region_features[j, k] * W_proj[c, k]) + b_proj[c]` is region `j`'s projected feature in channel `c`;
  region `j` covers pixel `(h, w)` when `region_masks[j, h, w] > 1/2`. At batch `n`, channel `c`, pixel `(h, w)` the result is
  `spatial_features[n, c, h, w]` plus the projected feature of the LAST region covering the pixel (plus 0 if none does):
  the rows are listed from region 15 down to region 0, and the first one that covers the pixel wins.
-/
import proofs.«169650_g1486058684825_cont_week2b_673_16_alg».proof.Proof.LibFirstSet

noncomputable section

namespace Cert.Inject

open Idealize.ShloMosaic Idealize.ShloMosaic.ValueIdx Cert.FirstSet

abbrev TSp : Shape := ⟨4, ![4, 1280, 64, 64]⟩
abbrev TRf : Shape := ⟨2, ![16, 512]⟩
abbrev TMk : Shape := ⟨3, ![16, 64, 64]⟩
abbrev TW : Shape := ⟨2, ![1280, 512]⟩
abbrev TB : Shape := ⟨1, ![1280]⟩

/-- The threshold one half, as the float word both programs spell it with. -/
abbrev half : EReal := FloatOps.ofBits (F := Ideal) .f32 0x3F000000#32

/-- The comparison "exceeds one half", as a bit. -/
def above (x : EReal) : BitVec 1 := FloatOps.cmpf (F := Ideal) (φ := .f32) .ogt x half

/-- Sixteen rows from the last to the first: row `j` is set when its mask value `μ j` exceeds one half, and carries `π j`. -/
def rowsOf (μ π : Fin 16 → EReal) : List (BitVec 1 × EReal) :=
  [ (above (μ 15), π 15), (above (μ 14), π 14), (above (μ 13), π 13), (above (μ 12), π 12), (above (μ 11), π 11), (above (μ 10), π 10), (above (μ 9), π 9), (above (μ 8), π 8), (above (μ 7), π 7), (above (μ 6), π 6), (above (μ 5), π 5), (above (μ 4), π 4), (above (μ 3), π 3), (above (μ 2), π 2), (above (μ 1), π 1), (above (μ 0), π 0) ]

/-- Region `j`'s projected feature in channel `c`. -/
def proj (rf : TRf.Idx → EReal) (wp : TW.Idx → EReal) (bp : TB.Idx → EReal) (j : Fin 16) (c : Fin 1280) : EReal :=
  (∑ k : Fin 512, rf (ix2 j k) * wp (ix2 c k)) + bp (ix1 c)

/-- Whether region `j` covers pixel `(h, w)`: the comparison's bit. -/
def hit (mk : TMk.Idx → EReal) (j : Fin 16) (h w : Fin 64) : BitVec 1 := above (mk (ix3 j h w))

/-- The injected map at channel `c`, pixel `(h, w)`: the last covering region's feature, or 0. -/
def regionMap (rf : TRf.Idx → EReal) (mk : TMk.Idx → EReal) (wp : TW.Idx → EReal) (bp : TB.Idx → EReal)
    (c : Fin 1280) (h w : Fin 64) : EReal :=
  firstSet (rowsOf (fun j => mk (ix3 j h w)) (fun j => proj rf wp bp j c))

/-- The result array. -/
def inject (sp : TSp.Idx → EReal) (rf : TRf.Idx → EReal) (mk : TMk.Idx → EReal) (wp : TW.Idx → EReal) (bp : TB.Idx → EReal) :
    TSp.Idx → EReal :=
  fun i => sp i + regionMap rf mk wp bp (i 1) (i 2) (i 3)

end Cert.Inject

end
-- ==== Proof.RefIsSpec.lean ====
/-
  The reference computes the specification.

  The reference forms `proj = region_features · W_projᵀ + b_proj` (a [16, 1280] array), starts from the zero map, and for
  region 0, 1, …, 15 in turn overwrites the map, where the region's mask exceeds one half, with that region's row of `proj`
  broadcast over batch and pixels; the result is `spatial_features` plus the final map. Read at one index `(n, c, h, w)` the
  sixteen nested selects are, outermost first, region 15's down to region 0's, ending in 0: the first covering region
  in that order wins, which is the specification's `firstSet` of its rows.
-/
import proofs.«169650_g1486058684825_cont_week2b_673_16_alg».proof.Proof.RefReadP
import proofs.«169650_g1486058684825_cont_week2b_673_16_alg».proof.Proof.Spec

noncomputable section

namespace Cert.Inject.Ref

open Cert.ReferenceIdeal Cert.ReferenceIdeal.ReadP Idealize.ShloMosaic Idealize.ShloMosaic.ValueIdx Cert.FirstSet Cert.Inject

/-- The projection stage `region_features · W_projᵀ + b_proj` at row `j`, column `c` is `proj j c`: the contraction runs
    over the 512 feature coordinates, the transposed weight read back at `(c, k)`, the bias broadcast along the rows. -/
theorem proj_at (x1 : (⟨S16x512, .f32⟩ : BufTy).Contents (Elt Ideal)) (x3 : (⟨S1280x512, .f32⟩ : BufTy).Contents (Elt Ideal)) (x4 : (⟨S1280, .f32⟩ : BufTy).Contents (Elt Ideal))
    (k : S16x1280.Idx) (j : Fin 16) (c : Fin 1280) (hj : (k 0).val = j.val) (hc : (k 1).val = c.val) :
    val_main_v4 (F := Ideal) x1 x3 x4 k = proj x1 x3 x4 j c := by
  have el : ∀ kk : Fin 512, lidx_main_v1 k kk = ix2 j kk := fun kk => funext fun a => Fin.ext (by
    match a with
    | ⟨0, _⟩ => exact hj
    | ⟨1, _⟩ => rfl)
  have er : ∀ kk : Fin 512, idx_main_v0 (ridx_main_v1 k kk) = ix2 c kk := fun kk => funext fun a => Fin.ext (by
    match a with
    | ⟨0, _⟩ => exact hc
    | ⟨1, _⟩ => rfl)
  have eb : idx_main_v2 (idx_main_v3 k) = ix1 c := funext fun a => Fin.ext (by
    match a with
    | ⟨0, _⟩ => exact hc)
  rw [val_main_v4_apply, val_main_v1_apply, val_main_v3_apply, val_main_v2_apply, eb]
  unfold proj
  simp only [val_main_v0_apply, el, er]
  rfl

/-- The comparison of a mask entry with one half, at the entry of region `j`, pixel `(h, w)`, is the cover bit. -/
theorem cmp_at (x2 : (⟨S16x64x64, .f32⟩ : BufTy).Contents (Elt Ideal)) (k : S16x64x64.Idx) (j : Fin 16) (h w : Fin 64)
    (h0 : (k 0).val = j.val) (h1 : (k 1).val = h.val) (h2 : (k 2).val = w.val) :
    FloatOps.cmpf (F := Ideal) .ogt (x2 k) (FloatOps.ofBits .f32 0x3F000000#32) = hit x2 j h w := by
  have e : k = ix3 j h w := funext fun a => Fin.ext (by
    match a with
    | ⟨0, _⟩ => exact h0
    | ⟨1, _⟩ => exact h1
    | ⟨2, _⟩ => exact h2)
  rw [e]; rfl

/-- Step 0 of the reference's overwrite loop: its condition at an index is region 0's cover bit at the index's pixel. -/
theorem cond_0 (x2 : (⟨S16x64x64, .f32⟩ : BufTy).Contents (Elt Ideal)) (i : S4x1280x64x64.Idx) :
    val_main_call0_v0 (F := Ideal) x2 i = hit x2 0 (i 2) (i 3) := by
  have h2 : (i 2).val < 64 := (i 2).isLt
  have h3 : (i 3).val < 64 := (i 3).isLt
  rw [val_main_call0_v0_apply, val_main_v10_apply, val_main_v9_apply, val_main_v7_apply, val_main_v6_apply,
    val_main_v8_apply, val_main_cst_0_apply]
  exact cmp_at x2 _ 0 (i 2) (i 3) rfl
    (by show ((i 2).val * 64 + (i 3).val) / 64 % 64 = (i 2).val; omega)
    (by show ((i 2).val * 64 + (i 3).val) % 64 = (i 3).val; omega)

/-- and the value it writes there is region 0's projected feature in the index's channel. -/
theorem val_0 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call0_v1 (F := Ideal) x1 x3 x4 i = proj x1 x3 x4 0 (i 1) := by
  have h1 : (i 1).val < 1280 := (i 1).isLt
  rw [val_main_call0_v1_apply, val_main_v13_apply, val_main_v12_apply, val_main_v11_apply]
  exact proj_at x1 x3 x4 _ 0 (i 1) rfl (by show ((i 1).val) % 1280 = (i 1).val; omega)

/-- Step 1 of the reference's overwrite loop: its condition at an index is region 1's cover bit at the index's pixel. -/
theorem cond_1 (x2 : (⟨S16x64x64, .f32⟩ : BufTy).Contents (Elt Ideal)) (i : S4x1280x64x64.Idx) :
    val_main_call1_v0 (F := Ideal) x2 i = hit x2 1 (i 2) (i 3) := by
  have h2 : (i 2).val < 64 := (i 2).isLt
  have h3 : (i 3).val < 64 := (i 3).isLt
  rw [val_main_call1_v0_apply, val_main_v19_apply, val_main_v18_apply, val_main_v16_apply, val_main_v15_apply,
    val_main_v17_apply, val_main_cst_1_apply]
  exact cmp_at x2 _ 1 (i 2) (i 3) rfl
    (by show ((i 2).val * 64 + (i 3).val) / 64 % 64 = (i 2).val; omega)
    (by show ((i 2).val * 64 + (i 3).val) % 64 = (i 3).val; omega)

/-- and the value it writes there is region 1's projected feature in the index's channel. -/
theorem val_1 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call1_v1 (F := Ideal) x1 x3 x4 i = proj x1 x3 x4 1 (i 1) := by
  have h1 : (i 1).val < 1280 := (i 1).isLt
  rw [val_main_call1_v1_apply, val_main_v22_apply, val_main_v21_apply, val_main_v20_apply]
  exact proj_at x1 x3 x4 _ 1 (i 1) rfl (by show ((i 1).val) % 1280 = (i 1).val; omega)

/-- Step 2 of the reference's overwrite loop: its condition at an index is region 2's cover bit at the index's pixel. -/
theorem cond_2 (x2 : (⟨S16x64x64, .f32⟩ : BufTy).Contents (Elt Ideal)) (i : S4x1280x64x64.Idx) :
    val_main_call2_v0 (F := Ideal) x2 i = hit x2 2 (i 2) (i 3) := by
  have h2 : (i 2).val < 64 := (i 2).isLt
  have h3 : (i 3).val < 64 := (i 3).isLt
  rw [val_main_call2_v0_apply, val_main_v28_apply, val_main_v27_apply, val_main_v25_apply, val_main_v24_apply,
    val_main_v26_apply, val_main_cst_2_apply]
  exact cmp_at x2 _ 2 (i 2) (i 3) rfl
    (by show ((i 2).val * 64 + (i 3).val) / 64 % 64 = (i 2).val; omega)
    (by show ((i 2).val * 64 + (i 3).val) % 64 = (i 3).val; omega)

/-- and the value it writes there is region 2's projected feature in the index's channel. -/
theorem val_2 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call2_v1 (F := Ideal) x1 x3 x4 i = proj x1 x3 x4 2 (i 1) := by
  have h1 : (i 1).val < 1280 := (i 1).isLt
  rw [val_main_call2_v1_apply, val_main_v31_apply, val_main_v30_apply, val_main_v29_apply]
  exact proj_at x1 x3 x4 _ 2 (i 1) rfl (by show ((i 1).val) % 1280 = (i 1).val; omega)

/-- Step 3 of the reference's overwrite loop: its condition at an index is region 3's cover bit at the index's pixel. -/
theorem cond_3 (x2 : (⟨S16x64x64, .f32⟩ : BufTy).Contents (Elt Ideal)) (i : S4x1280x64x64.Idx) :
    val_main_call3_v0 (F := Ideal) x2 i = hit x2 3 (i 2) (i 3) := by
  have h2 : (i 2).val < 64 := (i 2).isLt
  have h3 : (i 3).val < 64 := (i 3).isLt
  rw [val_main_call3_v0_apply, val_main_v37_apply, val_main_v36_apply, val_main_v34_apply, val_main_v33_apply,
    val_main_v35_apply, val_main_cst_3_apply]
  exact cmp_at x2 _ 3 (i 2) (i 3) rfl
    (by show ((i 2).val * 64 + (i 3).val) / 64 % 64 = (i 2).val; omega)
    (by show ((i 2).val * 64 + (i 3).val) % 64 = (i 3).val; omega)

/-- and the value it writes there is region 3's projected feature in the index's channel. -/
theorem val_3 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call3_v1 (F := Ideal) x1 x3 x4 i = proj x1 x3 x4 3 (i 1) := by
  have h1 : (i 1).val < 1280 := (i 1).isLt
  rw [val_main_call3_v1_apply, val_main_v40_apply, val_main_v39_apply, val_main_v38_apply]
  exact proj_at x1 x3 x4 _ 3 (i 1) rfl (by show ((i 1).val) % 1280 = (i 1).val; omega)

/-- Step 4 of the reference's overwrite loop: its condition at an index is region 4's cover bit at the index's pixel. -/
theorem cond_4 (x2 : (⟨S16x64x64, .f32⟩ : BufTy).Contents (Elt Ideal)) (i : S4x1280x64x64.Idx) :
    val_main_call4_v0 (F := Ideal) x2 i = hit x2 4 (i 2) (i 3) := by
  have h2 : (i 2).val < 64 := (i 2).isLt
  have h3 : (i 3).val < 64 := (i 3).isLt
  rw [val_main_call4_v0_apply, val_main_v46_apply, val_main_v45_apply, val_main_v43_apply, val_main_v42_apply,
    val_main_v44_apply, val_main_cst_4_apply]
  exact cmp_at x2 _ 4 (i 2) (i 3) rfl
    (by show ((i 2).val * 64 + (i 3).val) / 64 % 64 = (i 2).val; omega)
    (by show ((i 2).val * 64 + (i 3).val) % 64 = (i 3).val; omega)

/-- and the value it writes there is region 4's projected feature in the index's channel. -/
theorem val_4 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call4_v1 (F := Ideal) x1 x3 x4 i = proj x1 x3 x4 4 (i 1) := by
  have h1 : (i 1).val < 1280 := (i 1).isLt
  rw [val_main_call4_v1_apply, val_main_v49_apply, val_main_v48_apply, val_main_v47_apply]
  exact proj_at x1 x3 x4 _ 4 (i 1) rfl (by show ((i 1).val) % 1280 = (i 1).val; omega)

/-- Step 5 of the reference's overwrite loop: its condition at an index is region 5's cover bit at the index's pixel. -/
theorem cond_5 (x2 : (⟨S16x64x64, .f32⟩ : BufTy).Contents (Elt Ideal)) (i : S4x1280x64x64.Idx) :
    val_main_call5_v0 (F := Ideal) x2 i = hit x2 5 (i 2) (i 3) := by
  have h2 : (i 2).val < 64 := (i 2).isLt
  have h3 : (i 3).val < 64 := (i 3).isLt
  rw [val_main_call5_v0_apply, val_main_v55_apply, val_main_v54_apply, val_main_v52_apply, val_main_v51_apply,
    val_main_v53_apply, val_main_cst_5_apply]
  exact cmp_at x2 _ 5 (i 2) (i 3) rfl
    (by show ((i 2).val * 64 + (i 3).val) / 64 % 64 = (i 2).val; omega)
    (by show ((i 2).val * 64 + (i 3).val) % 64 = (i 3).val; omega)

/-- and the value it writes there is region 5's projected feature in the index's channel. -/
theorem val_5 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call5_v1 (F := Ideal) x1 x3 x4 i = proj x1 x3 x4 5 (i 1) := by
  have h1 : (i 1).val < 1280 := (i 1).isLt
  rw [val_main_call5_v1_apply, val_main_v58_apply, val_main_v57_apply, val_main_v56_apply]
  exact proj_at x1 x3 x4 _ 5 (i 1) rfl (by show ((i 1).val) % 1280 = (i 1).val; omega)

/-- Step 6 of the reference's overwrite loop: its condition at an index is region 6's cover bit at the index's pixel. -/
theorem cond_6 (x2 : (⟨S16x64x64, .f32⟩ : BufTy).Contents (Elt Ideal)) (i : S4x1280x64x64.Idx) :
    val_main_call6_v0 (F := Ideal) x2 i = hit x2 6 (i 2) (i 3) := by
  have h2 : (i 2).val < 64 := (i 2).isLt
  have h3 : (i 3).val < 64 := (i 3).isLt
  rw [val_main_call6_v0_apply, val_main_v64_apply, val_main_v63_apply, val_main_v61_apply, val_main_v60_apply,
    val_main_v62_apply, val_main_cst_6_apply]
  exact cmp_at x2 _ 6 (i 2) (i 3) rfl
    (by show ((i 2).val * 64 + (i 3).val) / 64 % 64 = (i 2).val; omega)
    (by show ((i 2).val * 64 + (i 3).val) % 64 = (i 3).val; omega)

/-- and the value it writes there is region 6's projected feature in the index's channel. -/
theorem val_6 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call6_v1 (F := Ideal) x1 x3 x4 i = proj x1 x3 x4 6 (i 1) := by
  have h1 : (i 1).val < 1280 := (i 1).isLt
  rw [val_main_call6_v1_apply, val_main_v67_apply, val_main_v66_apply, val_main_v65_apply]
  exact proj_at x1 x3 x4 _ 6 (i 1) rfl (by show ((i 1).val) % 1280 = (i 1).val; omega)

/-- Step 7 of the reference's overwrite loop: its condition at an index is region 7's cover bit at the index's pixel. -/
theorem cond_7 (x2 : (⟨S16x64x64, .f32⟩ : BufTy).Contents (Elt Ideal)) (i : S4x1280x64x64.Idx) :
    val_main_call7_v0 (F := Ideal) x2 i = hit x2 7 (i 2) (i 3) := by
  have h2 : (i 2).val < 64 := (i 2).isLt
  have h3 : (i 3).val < 64 := (i 3).isLt
  rw [val_main_call7_v0_apply, val_main_v73_apply, val_main_v72_apply, val_main_v70_apply, val_main_v69_apply,
    val_main_v71_apply, val_main_cst_7_apply]
  exact cmp_at x2 _ 7 (i 2) (i 3) rfl
    (by show ((i 2).val * 64 + (i 3).val) / 64 % 64 = (i 2).val; omega)
    (by show ((i 2).val * 64 + (i 3).val) % 64 = (i 3).val; omega)

/-- and the value it writes there is region 7's projected feature in the index's channel. -/
theorem val_7 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call7_v1 (F := Ideal) x1 x3 x4 i = proj x1 x3 x4 7 (i 1) := by
  have h1 : (i 1).val < 1280 := (i 1).isLt
  rw [val_main_call7_v1_apply, val_main_v76_apply, val_main_v75_apply, val_main_v74_apply]
  exact proj_at x1 x3 x4 _ 7 (i 1) rfl (by show ((i 1).val) % 1280 = (i 1).val; omega)

/-- Step 8 of the reference's overwrite loop: its condition at an index is region 8's cover bit at the index's pixel. -/
theorem cond_8 (x2 : (⟨S16x64x64, .f32⟩ : BufTy).Contents (Elt Ideal)) (i : S4x1280x64x64.Idx) :
    val_main_call8_v0 (F := Ideal) x2 i = hit x2 8 (i 2) (i 3) := by
  have h2 : (i 2).val < 64 := (i 2).isLt
  have h3 : (i 3).val < 64 := (i 3).isLt
  rw [val_main_call8_v0_apply, val_main_v82_apply, val_main_v81_apply, val_main_v79_apply, val_main_v78_apply,
    val_main_v80_apply, val_main_cst_8_apply]
  exact cmp_at x2 _ 8 (i 2) (i 3) rfl
    (by show ((i 2).val * 64 + (i 3).val) / 64 % 64 = (i 2).val; omega)
    (by show ((i 2).val * 64 + (i 3).val) % 64 = (i 3).val; omega)

/-- and the value it writes there is region 8's projected feature in the index's channel. -/
theorem val_8 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call8_v1 (F := Ideal) x1 x3 x4 i = proj x1 x3 x4 8 (i 1) := by
  have h1 : (i 1).val < 1280 := (i 1).isLt
  rw [val_main_call8_v1_apply, val_main_v85_apply, val_main_v84_apply, val_main_v83_apply]
  exact proj_at x1 x3 x4 _ 8 (i 1) rfl (by show ((i 1).val) % 1280 = (i 1).val; omega)

/-- Step 9 of the reference's overwrite loop: its condition at an index is region 9's cover bit at the index's pixel. -/
theorem cond_9 (x2 : (⟨S16x64x64, .f32⟩ : BufTy).Contents (Elt Ideal)) (i : S4x1280x64x64.Idx) :
    val_main_call9_v0 (F := Ideal) x2 i = hit x2 9 (i 2) (i 3) := by
  have h2 : (i 2).val < 64 := (i 2).isLt
  have h3 : (i 3).val < 64 := (i 3).isLt
  rw [val_main_call9_v0_apply, val_main_v91_apply, val_main_v90_apply, val_main_v88_apply, val_main_v87_apply,
    val_main_v89_apply, val_main_cst_9_apply]
  exact cmp_at x2 _ 9 (i 2) (i 3) rfl
    (by show ((i 2).val * 64 + (i 3).val) / 64 % 64 = (i 2).val; omega)
    (by show ((i 2).val * 64 + (i 3).val) % 64 = (i 3).val; omega)

/-- and the value it writes there is region 9's projected feature in the index's channel. -/
theorem val_9 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call9_v1 (F := Ideal) x1 x3 x4 i = proj x1 x3 x4 9 (i 1) := by
  have h1 : (i 1).val < 1280 := (i 1).isLt
  rw [val_main_call9_v1_apply, val_main_v94_apply, val_main_v93_apply, val_main_v92_apply]
  exact proj_at x1 x3 x4 _ 9 (i 1) rfl (by show ((i 1).val) % 1280 = (i 1).val; omega)

/-- Step 10 of the reference's overwrite loop: its condition at an index is region 10's cover bit at the index's pixel. -/
theorem cond_10 (x2 : (⟨S16x64x64, .f32⟩ : BufTy).Contents (Elt Ideal)) (i : S4x1280x64x64.Idx) :
    val_main_call10_v0 (F := Ideal) x2 i = hit x2 10 (i 2) (i 3) := by
  have h2 : (i 2).val < 64 := (i 2).isLt
  have h3 : (i 3).val < 64 := (i 3).isLt
  rw [val_main_call10_v0_apply, val_main_v100_apply, val_main_v99_apply, val_main_v97_apply, val_main_v96_apply,
    val_main_v98_apply, val_main_cst_10_apply]
  exact cmp_at x2 _ 10 (i 2) (i 3) rfl
    (by show ((i 2).val * 64 + (i 3).val) / 64 % 64 = (i 2).val; omega)
    (by show ((i 2).val * 64 + (i 3).val) % 64 = (i 3).val; omega)

/-- and the value it writes there is region 10's projected feature in the index's channel. -/
theorem val_10 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call10_v1 (F := Ideal) x1 x3 x4 i = proj x1 x3 x4 10 (i 1) := by
  have h1 : (i 1).val < 1280 := (i 1).isLt
  rw [val_main_call10_v1_apply, val_main_v103_apply, val_main_v102_apply, val_main_v101_apply]
  exact proj_at x1 x3 x4 _ 10 (i 1) rfl (by show ((i 1).val) % 1280 = (i 1).val; omega)

/-- Step 11 of the reference's overwrite loop: its condition at an index is region 11's cover bit at the index's pixel. -/
theorem cond_11 (x2 : (⟨S16x64x64, .f32⟩ : BufTy).Contents (Elt Ideal)) (i : S4x1280x64x64.Idx) :
    val_main_call11_v0 (F := Ideal) x2 i = hit x2 11 (i 2) (i 3) := by
  have h2 : (i 2).val < 64 := (i 2).isLt
  have h3 : (i 3).val < 64 := (i 3).isLt
  rw [val_main_call11_v0_apply, val_main_v109_apply, val_main_v108_apply, val_main_v106_apply, val_main_v105_apply,
    val_main_v107_apply, val_main_cst_11_apply]
  exact cmp_at x2 _ 11 (i 2) (i 3) rfl
    (by show ((i 2).val * 64 + (i 3).val) / 64 % 64 = (i 2).val; omega)
    (by show ((i 2).val * 64 + (i 3).val) % 64 = (i 3).val; omega)

/-- and the value it writes there is region 11's projected feature in the index's channel. -/
theorem val_11 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call11_v1 (F := Ideal) x1 x3 x4 i = proj x1 x3 x4 11 (i 1) := by
  have h1 : (i 1).val < 1280 := (i 1).isLt
  rw [val_main_call11_v1_apply, val_main_v112_apply, val_main_v111_apply, val_main_v110_apply]
  exact proj_at x1 x3 x4 _ 11 (i 1) rfl (by show ((i 1).val) % 1280 = (i 1).val; omega)

/-- Step 12 of the reference's overwrite loop: its condition at an index is region 12's cover bit at the index's pixel. -/
theorem cond_12 (x2 : (⟨S16x64x64, .f32⟩ : BufTy).Contents (Elt Ideal)) (i : S4x1280x64x64.Idx) :
    val_main_call12_v0 (F := Ideal) x2 i = hit x2 12 (i 2) (i 3) := by
  have h2 : (i 2).val < 64 := (i 2).isLt
  have h3 : (i 3).val < 64 := (i 3).isLt
  rw [val_main_call12_v0_apply, val_main_v118_apply, val_main_v117_apply, val_main_v115_apply, val_main_v114_apply,
    val_main_v116_apply, val_main_cst_12_apply]
  exact cmp_at x2 _ 12 (i 2) (i 3) rfl
    (by show ((i 2).val * 64 + (i 3).val) / 64 % 64 = (i 2).val; omega)
    (by show ((i 2).val * 64 + (i 3).val) % 64 = (i 3).val; omega)

/-- and the value it writes there is region 12's projected feature in the index's channel. -/
theorem val_12 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call12_v1 (F := Ideal) x1 x3 x4 i = proj x1 x3 x4 12 (i 1) := by
  have h1 : (i 1).val < 1280 := (i 1).isLt
  rw [val_main_call12_v1_apply, val_main_v121_apply, val_main_v120_apply, val_main_v119_apply]
  exact proj_at x1 x3 x4 _ 12 (i 1) rfl (by show ((i 1).val) % 1280 = (i 1).val; omega)

/-- Step 13 of the reference's overwrite loop: its condition at an index is region 13's cover bit at the index's pixel. -/
theorem cond_13 (x2 : (⟨S16x64x64, .f32⟩ : BufTy).Contents (Elt Ideal)) (i : S4x1280x64x64.Idx) :
    val_main_call13_v0 (F := Ideal) x2 i = hit x2 13 (i 2) (i 3) := by
  have h2 : (i 2).val < 64 := (i 2).isLt
  have h3 : (i 3).val < 64 := (i 3).isLt
  rw [val_main_call13_v0_apply, val_main_v127_apply, val_main_v126_apply, val_main_v124_apply, val_main_v123_apply,
    val_main_v125_apply, val_main_cst_13_apply]
  exact cmp_at x2 _ 13 (i 2) (i 3) rfl
    (by show ((i 2).val * 64 + (i 3).val) / 64 % 64 = (i 2).val; omega)
    (by show ((i 2).val * 64 + (i 3).val) % 64 = (i 3).val; omega)

/-- and the value it writes there is region 13's projected feature in the index's channel. -/
theorem val_13 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call13_v1 (F := Ideal) x1 x3 x4 i = proj x1 x3 x4 13 (i 1) := by
  have h1 : (i 1).val < 1280 := (i 1).isLt
  rw [val_main_call13_v1_apply, val_main_v130_apply, val_main_v129_apply, val_main_v128_apply]
  exact proj_at x1 x3 x4 _ 13 (i 1) rfl (by show ((i 1).val) % 1280 = (i 1).val; omega)

/-- Step 14 of the reference's overwrite loop: its condition at an index is region 14's cover bit at the index's pixel. -/
theorem cond_14 (x2 : (⟨S16x64x64, .f32⟩ : BufTy).Contents (Elt Ideal)) (i : S4x1280x64x64.Idx) :
    val_main_call14_v0 (F := Ideal) x2 i = hit x2 14 (i 2) (i 3) := by
  have h2 : (i 2).val < 64 := (i 2).isLt
  have h3 : (i 3).val < 64 := (i 3).isLt
  rw [val_main_call14_v0_apply, val_main_v136_apply, val_main_v135_apply, val_main_v133_apply, val_main_v132_apply,
    val_main_v134_apply, val_main_cst_14_apply]
  exact cmp_at x2 _ 14 (i 2) (i 3) rfl
    (by show ((i 2).val * 64 + (i 3).val) / 64 % 64 = (i 2).val; omega)
    (by show ((i 2).val * 64 + (i 3).val) % 64 = (i 3).val; omega)

/-- and the value it writes there is region 14's projected feature in the index's channel. -/
theorem val_14 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call14_v1 (F := Ideal) x1 x3 x4 i = proj x1 x3 x4 14 (i 1) := by
  have h1 : (i 1).val < 1280 := (i 1).isLt
  rw [val_main_call14_v1_apply, val_main_v139_apply, val_main_v138_apply, val_main_v137_apply]
  exact proj_at x1 x3 x4 _ 14 (i 1) rfl (by show ((i 1).val) % 1280 = (i 1).val; omega)

/-- Step 15 of the reference's overwrite loop: its condition at an index is region 15's cover bit at the index's pixel. -/
theorem cond_15 (x2 : (⟨S16x64x64, .f32⟩ : BufTy).Contents (Elt Ideal)) (i : S4x1280x64x64.Idx) :
    val_main_call15_v0 (F := Ideal) x2 i = hit x2 15 (i 2) (i 3) := by
  have h2 : (i 2).val < 64 := (i 2).isLt
  have h3 : (i 3).val < 64 := (i 3).isLt
  rw [val_main_call15_v0_apply, val_main_v145_apply, val_main_v144_apply, val_main_v142_apply, val_main_v141_apply,
    val_main_v143_apply, val_main_cst_15_apply]
  exact cmp_at x2 _ 15 (i 2) (i 3) rfl
    (by show ((i 2).val * 64 + (i 3).val) / 64 % 64 = (i 2).val; omega)
    (by show ((i 2).val * 64 + (i 3).val) % 64 = (i 3).val; omega)

/-- and the value it writes there is region 15's projected feature in the index's channel. -/
theorem val_15 (x1 : (⟨S16x512, .f32⟩ : BufTy).Contents (Elt Ideal)) (x3 : (⟨S1280x512, .f32⟩ : BufTy).Contents (Elt Ideal)) (x4 : (⟨S1280, .f32⟩ : BufTy).Contents (Elt Ideal)) (i : S4x1280x64x64.Idx) :
    val_main_call15_v1 (F := Ideal) x1 x3 x4 i = proj x1 x3 x4 15 (i 1) := by
  have h1 : (i 1).val < 1280 := (i 1).isLt
  rw [val_main_call15_v1_apply, val_main_v148_apply, val_main_v147_apply, val_main_v146_apply]
  exact proj_at x1 x3 x4 _ 15 (i 1) rfl (by show ((i 1).val) % 1280 = (i 1).val; omega)

/-- The reference's result is the specification, index by index. -/
theorem ref_is_spec (x0 : (⟨S4x1280x64x64, .f32⟩ : BufTy).Contents (Elt Ideal)) (x1 : (⟨S16x512, .f32⟩ : BufTy).Contents (Elt Ideal)) (x2 : (⟨S16x64x64, .f32⟩ : BufTy).Contents (Elt Ideal))
    (x3 : (⟨S1280x512, .f32⟩ : BufTy).Contents (Elt Ideal)) (x4 : (⟨S1280, .f32⟩ : BufTy).Contents (Elt Ideal)) :
    val_main_v150 (F := Ideal) x0 x1 x2 x3 x4 = inject x0 x1 x2 x3 x4 := by
  funext i
  rw [val_main_v150_apply, val_main_v149_apply, val_main_v140_apply, val_main_v131_apply, val_main_v122_apply, val_main_v113_apply, val_main_v104_apply, val_main_v95_apply, val_main_v86_apply, val_main_v77_apply, val_main_v68_apply, val_main_v59_apply, val_main_v50_apply, val_main_v41_apply, val_main_v32_apply, val_main_v23_apply, val_main_v14_apply, val_main_v5_apply, val_main_cst_apply]
  simp only [cond_0, val_0, cond_1, val_1, cond_2, val_2, cond_3, val_3, cond_4, val_4, cond_5, val_5, cond_6, val_6, cond_7, val_7, cond_8, val_8, cond_9, val_9, cond_10, val_10, cond_11, val_11, cond_12, val_12, cond_13, val_13, cond_14, val_14, cond_15, val_15]
  rw [show FloatOps.ofBits (F := Ideal) .f32 0x00000000#32 = (0 : EReal) from Ideal.ofBits_zero_f32]
  rfl

end Cert.Inject.Ref

end
-- ==== Proof.KernelBody.lean ====
/-
  What the kernel's body stores, read at one entry.

  The body turns the masks into 0/1 numbers `m j = [mask j > 1/2]`, builds the sixteen rows `a j = m j * s j` from the
  top, `s 15 = 1` and `s (j-1) = s j * (1 - m j)` (so `a j` is 1 exactly when `j` is the last set row), forms
  `projT = W_proj · region_featuresᵀ + b_proj` and stores `projT · a`. At channel `c` and lane `p` that product is the sum
  over the sixteen rows of `projT[c, j] * a[j, p]`, which by the one-hot law (LibFirstSet) is the feature of the
  first set row from the top.
-/
import proofs.«169650_g1486058684825_cont_week2b_673_16_alg».proof.Proof.Gen.KernelIdeal.Skeleton
import proofs.«169650_g1486058684825_cont_week2b_673_16_alg».proof.Proof.Spec
import Idealize.ShloMosaic.Lib.ValueIdx
import Idealize.ShloMosaic.Lib.Pipeline.Value
import Idealize.ShloMosaic.PureOps.Ideal.Laws

set_option maxRecDepth 16384

noncomputable section

namespace Cert.Inject.Body

open Cert.KernelIdeal Cert.KernelIdeal.Gen Idealize.ShloMosaic Idealize.ShloMosaic.ValueIdx Cert.FirstSet Cert.Inject

/-! ## The float words -/

/-- The word of 1.0 denotes 1. -/
theorem one_word : Scalar.ofBits (F := Ideal) .f32 0x3F800000#32 = (1 : EReal) := by
  show Ideal.ofBits .f32 0x3F800000#32 = 1
  simp [Ideal.ofBits, Ideal.ieee, -EReal.coe_mul]
  norm_num

/-! ## The first product: `W_proj · region_featuresᵀ`, contracted over the 512 feature coordinates of both operands -/

theorem d1_lhs0 (i : S1280x16.Idx) (q : dot_S1280x512_S16x512_S1280x16_1_1_0_0_n_n.contr.Idx) : (dot_S1280x512_S16x512_S1280x16_1_1_0_0_n_n.lhsIdx i q 0).val = (i 0).val := by
  unfold DotDims.lhsIdx
  rw [dif_neg (show ¬(0 : Fin S1280x512.rank) ∈ dot_S1280x512_S16x512_S1280x16_1_1_0_0_n_n.lhsBatch by decide), dif_pos (show (0 : Fin S1280x512.rank) ∈ dot_S1280x512_S16x512_S1280x16_1_1_0_0_n_n.lhsNonContracting by decide)]
  rfl
theorem d1_lhs1 (i : S1280x16.Idx) (q : dot_S1280x512_S16x512_S1280x16_1_1_0_0_n_n.contr.Idx) : (dot_S1280x512_S16x512_S1280x16_1_1_0_0_n_n.lhsIdx i q 1).val = (q ⟨0, by decide⟩).val :=
  dot_S1280x512_S16x512_S1280x16_1_1_0_0_n_n.lhsIdx_val_of_single rfl i q
theorem d1_rhs0 (i : S1280x16.Idx) (q : dot_S1280x512_S16x512_S1280x16_1_1_0_0_n_n.contr.Idx) : (dot_S1280x512_S16x512_S1280x16_1_1_0_0_n_n.rhsIdx i q 0).val = (i 1).val := by
  unfold DotDims.rhsIdx
  rw [dif_neg (show ¬(0 : Fin S16x512.rank) ∈ dot_S1280x512_S16x512_S1280x16_1_1_0_0_n_n.rhsBatch by decide), dif_pos (show (0 : Fin S16x512.rank) ∈ dot_S1280x512_S16x512_S1280x16_1_1_0_0_n_n.rhsNonContracting by decide)]
  rfl
theorem d1_rhs1 (i : S1280x16.Idx) (q : dot_S1280x512_S16x512_S1280x16_1_1_0_0_n_n.contr.Idx) : (dot_S1280x512_S16x512_S1280x16_1_1_0_0_n_n.rhsIdx i q 1).val = (q ⟨0, by decide⟩).val :=
  dot_S1280x512_S16x512_S1280x16_1_1_0_0_n_n.rhsIdx_val_of_single rfl i q

/-- The projection with its bias at channel `c`, region `j`: the sum over the feature coordinate, plus the bias column. -/
theorem proj_at (x2 : Vec Ideal S1280x512 .f32) (x0 : Vec Ideal S16x512 .f32) (x3 : Vec Ideal S1280x1 .f32) (c : Fin 1280) (j : Fin 16) :
    k0_pay29 x2 x0 x3 (ix2 c j) = (∑ k : Fin 512, x0 (ix2 j k) * x2 (ix2 c k)) + x3 (ix2 c 0) := by
  unfold k0_pay29
  show FloatOps.matmul dot_S1280x512_S16x512_S1280x16_1_1_0_0_n_n none x2 x0 (constant (F := Ideal) S1280x16 .f32 0x00000000#32) (ix2 c j)
      + broadcastTo S1280x16 (shapeCast S1280x1 x3 shapeCasts_S1280x1_S1280x1) broadcasts_S1280x1_S1280x16 (ix2 c j) = _
  rw [shapeCast_self, Ideal.matmul_constant_zero_apply, ← Equiv.sum_comp (contrEquiv1 dot_S1280x512_S16x512_S1280x16_1_1_0_0_n_n 512 rfl rfl).symm]
  congr 1
  · refine Finset.sum_congr rfl fun k _ => ?_
    have hk := contrEquiv1_symm_val dot_S1280x512_S16x512_S1280x16_1_1_0_0_n_n 512 rfl rfl k
    have el : dot_S1280x512_S16x512_S1280x16_1_1_0_0_n_n.lhsIdx (ix2 c j) ((contrEquiv1 dot_S1280x512_S16x512_S1280x16_1_1_0_0_n_n 512 rfl rfl).symm k) = ix2 c k := funext fun a => Fin.ext (by
      match a with
      | ⟨0, _⟩ => exact d1_lhs0 _ _
      | ⟨1, _⟩ => exact (d1_lhs1 _ _).trans hk)
    have er : dot_S1280x512_S16x512_S1280x16_1_1_0_0_n_n.rhsIdx (ix2 c j) ((contrEquiv1 dot_S1280x512_S16x512_S1280x16_1_1_0_0_n_n 512 rfl rfl).symm k) = ix2 j k := funext fun a => Fin.ext (by
      match a with
      | ⟨0, _⟩ => exact d1_rhs0 _ _
      | ⟨1, _⟩ => exact (d1_rhs1 _ _).trans hk)
    rw [el, er, mul_comm]
  · exact broadcastTo_apply x3 broadcasts_S1280x1_S1280x16 (ix2 c j) (ix2 c 0) (fun a => match a with
      | ⟨0, _⟩ => by show c.val = if (1280 : Nat) = 1 then 0 else c.val; rw [if_neg (by decide)]
      | ⟨1, _⟩ => by show 0 = if (1 : Nat) = 1 then 0 else j.val; rw [if_pos rfl])

/-! ## The second product: `projT · a`, contracted over the sixteen rows -/

theorem d2_lhs0 (i : S1280x4096.Idx) (q : dot_S1280x16_S16x4096_S1280x4096_1_0_0_1_n_n.contr.Idx) : (dot_S1280x16_S16x4096_S1280x4096_1_0_0_1_n_n.lhsIdx i q 0).val = (i 0).val := by
  unfold DotDims.lhsIdx
  rw [dif_neg (show ¬(0 : Fin S1280x16.rank) ∈ dot_S1280x16_S16x4096_S1280x4096_1_0_0_1_n_n.lhsBatch by decide), dif_pos (show (0 : Fin S1280x16.rank) ∈ dot_S1280x16_S16x4096_S1280x4096_1_0_0_1_n_n.lhsNonContracting by decide)]
  rfl
theorem d2_lhs1 (i : S1280x4096.Idx) (q : dot_S1280x16_S16x4096_S1280x4096_1_0_0_1_n_n.contr.Idx) : (dot_S1280x16_S16x4096_S1280x4096_1_0_0_1_n_n.lhsIdx i q 1).val = (q ⟨0, by decide⟩).val :=
  dot_S1280x16_S16x4096_S1280x4096_1_0_0_1_n_n.lhsIdx_val_of_single rfl i q
theorem d2_rhs0 (i : S1280x4096.Idx) (q : dot_S1280x16_S16x4096_S1280x4096_1_0_0_1_n_n.contr.Idx) : (dot_S1280x16_S16x4096_S1280x4096_1_0_0_1_n_n.rhsIdx i q 0).val = (q ⟨0, by decide⟩).val :=
  dot_S1280x16_S16x4096_S1280x4096_1_0_0_1_n_n.rhsIdx_val_of_single rfl i q
theorem d2_rhs1 (i : S1280x4096.Idx) (q : dot_S1280x16_S16x4096_S1280x4096_1_0_0_1_n_n.contr.Idx) : (dot_S1280x16_S16x4096_S1280x4096_1_0_0_1_n_n.rhsIdx i q 1).val = (i 1).val := by
  unfold DotDims.rhsIdx
  rw [dif_neg (show ¬(1 : Fin S16x4096.rank) ∈ dot_S1280x16_S16x4096_S1280x4096_1_0_0_1_n_n.rhsBatch by decide), dif_pos (show (1 : Fin S16x4096.rank) ∈ dot_S1280x16_S16x4096_S1280x4096_1_0_0_1_n_n.rhsNonContracting by decide)]
  rfl

/-- The stored value at channel `c`, lane `p`: the sum over the rows; the change of format on the way out is the identity. -/
theorem map_at (v84 : FVec Ideal S16x4096 .f32) (v91 : FVec Ideal S1280x16 .f32) (c : Fin 1280) (p : Fin 4096) :
    k0_pay1 v84 v91 (constant (F := Ideal) S1280x4096 .f32 0x00000000#32) (ix2 c p) = ∑ k : Fin 16, v91 (ix2 c k) * v84 (ix2 k p) := by
  unfold k0_pay1
  show FloatOps.matmul dot_S1280x16_S16x4096_S1280x4096_1_0_0_1_n_n none v91 v84 (constant (F := Ideal) S1280x4096 .f32 0x00000000#32) (ix2 c p) = _
  rw [Ideal.matmul_constant_zero_apply, ← Equiv.sum_comp (contrEquiv1 dot_S1280x16_S16x4096_S1280x4096_1_0_0_1_n_n 16 rfl rfl).symm]
  refine Finset.sum_congr rfl fun k _ => ?_
  have hk := contrEquiv1_symm_val dot_S1280x16_S16x4096_S1280x4096_1_0_0_1_n_n 16 rfl rfl k
  have el : dot_S1280x16_S16x4096_S1280x4096_1_0_0_1_n_n.lhsIdx (ix2 c p) ((contrEquiv1 dot_S1280x16_S16x4096_S1280x4096_1_0_0_1_n_n 16 rfl rfl).symm k) = ix2 c k := funext fun a => Fin.ext (by
    match a with
    | ⟨0, _⟩ => exact d2_lhs0 _ _
    | ⟨1, _⟩ => exact (d2_lhs1 _ _).trans hk)
  have er : dot_S1280x16_S16x4096_S1280x4096_1_0_0_1_n_n.rhsIdx (ix2 c p) ((contrEquiv1 dot_S1280x16_S16x4096_S1280x4096_1_0_0_1_n_n 16 rfl rfl).symm k) = ix2 k p := funext fun a => Fin.ext (by
    match a with
    | ⟨0, _⟩ => exact (d2_rhs0 _ _).trans hk
    | ⟨1, _⟩ => exact d2_rhs1 _ _)
  rw [el, er]

/-! ## The masks as numbers, the rows and their stack -/

/-- The mask of region `j` at lane `p` as a number: 1 if it exceeds one half, else 0. -/
theorem mask_at (x1 : Vec Ideal S16x4096 .f32) (j : Fin 16) (p : Fin 4096) :
    k0_pay2 x1 (ix2 j p) = bitf (above (x1 (ix2 j p))) := by
  unfold k0_pay2
  simp only [shapeCast_self]
  rfl

/-- Row `n` of a [16, 4096] array, as a [1, 4096] slice, at lane `p`. -/
theorem slice_at (y : FVec Ideal S16x4096 .f32) (n : Nat) (h : S16x4096.Slices ![n, 0] S1x4096) (hn : n < 16) (p : Fin 4096) :
    extractStridedSlice S1x4096 ![n, 0] y h (ix2 0 p) = y (ix2 ⟨n, hn⟩ p) :=
  extractStridedSlice_apply ![n, 0] y h (ix2 0 p) (ix2 ⟨n, hn⟩ p) (fun a => match a with
    | ⟨0, _⟩ => rfl
    | ⟨1, _⟩ => (Nat.zero_add _).symm)

theorem slice_0 (y : FVec Ideal S16x4096 .f32) (h : S16x4096.Slices ![0, 0] S1x4096) (p : Fin 4096) :
    extractStridedSlice S1x4096 ![0, 0] y h (ix2 0 p) = y (ix2 0 p) := slice_at y 0 h (by decide) p
theorem slice_1 (y : FVec Ideal S16x4096 .f32) (h : S16x4096.Slices ![1, 0] S1x4096) (p : Fin 4096) :
    extractStridedSlice S1x4096 ![1, 0] y h (ix2 0 p) = y (ix2 1 p) := slice_at y 1 h (by decide) p
theorem slice_2 (y : FVec Ideal S16x4096 .f32) (h : S16x4096.Slices ![2, 0] S1x4096) (p : Fin 4096) :
    extractStridedSlice S1x4096 ![2, 0] y h (ix2 0 p) = y (ix2 2 p) := slice_at y 2 h (by decide) p
theorem slice_3 (y : FVec Ideal S16x4096 .f32) (h : S16x4096.Slices ![3, 0] S1x4096) (p : Fin 4096) :
    extractStridedSlice S1x4096 ![3, 0] y h (ix2 0 p) = y (ix2 3 p) := slice_at y 3 h (by decide) p
theorem slice_4 (y : FVec Ideal S16x4096 .f32) (h : S16x4096.Slices ![4, 0] S1x4096) (p : Fin 4096) :
    extractStridedSlice S1x4096 ![4, 0] y h (ix2 0 p) = y (ix2 4 p) := slice_at y 4 h (by decide) p
theorem slice_5 (y : FVec Ideal S16x4096 .f32) (h : S16x4096.Slices ![5, 0] S1x4096) (p : Fin 4096) :
    extractStridedSlice S1x4096 ![5, 0] y h (ix2 0 p) = y (ix2 5 p) := slice_at y 5 h (by decide) p
theorem slice_6 (y : FVec Ideal S16x4096 .f32) (h : S16x4096.Slices ![6, 0] S1x4096) (p : Fin 4096) :
    extractStridedSlice S1x4096 ![6, 0] y h (ix2 0 p) = y (ix2 6 p) := slice_at y 6 h (by decide) p
theorem slice_7 (y : FVec Ideal S16x4096 .f32) (h : S16x4096.Slices ![7, 0] S1x4096) (p : Fin 4096) :
    extractStridedSlice S1x4096 ![7, 0] y h (ix2 0 p) = y (ix2 7 p) := slice_at y 7 h (by decide) p
theorem slice_8 (y : FVec Ideal S16x4096 .f32) (h : S16x4096.Slices ![8, 0] S1x4096) (p : Fin 4096) :
    extractStridedSlice S1x4096 ![8, 0] y h (ix2 0 p) = y (ix2 8 p) := slice_at y 8 h (by decide) p
theorem slice_9 (y : FVec Ideal S16x4096 .f32) (h : S16x4096.Slices ![9, 0] S1x4096) (p : Fin 4096) :
    extractStridedSlice S1x4096 ![9, 0] y h (ix2 0 p) = y (ix2 9 p) := slice_at y 9 h (by decide) p
theorem slice_10 (y : FVec Ideal S16x4096 .f32) (h : S16x4096.Slices ![10, 0] S1x4096) (p : Fin 4096) :
    extractStridedSlice S1x4096 ![10, 0] y h (ix2 0 p) = y (ix2 10 p) := slice_at y 10 h (by decide) p
theorem slice_11 (y : FVec Ideal S16x4096 .f32) (h : S16x4096.Slices ![11, 0] S1x4096) (p : Fin 4096) :
    extractStridedSlice S1x4096 ![11, 0] y h (ix2 0 p) = y (ix2 11 p) := slice_at y 11 h (by decide) p
theorem slice_12 (y : FVec Ideal S16x4096 .f32) (h : S16x4096.Slices ![12, 0] S1x4096) (p : Fin 4096) :
    extractStridedSlice S1x4096 ![12, 0] y h (ix2 0 p) = y (ix2 12 p) := slice_at y 12 h (by decide) p
theorem slice_13 (y : FVec Ideal S16x4096 .f32) (h : S16x4096.Slices ![13, 0] S1x4096) (p : Fin 4096) :
    extractStridedSlice S1x4096 ![13, 0] y h (ix2 0 p) = y (ix2 13 p) := slice_at y 13 h (by decide) p
theorem slice_14 (y : FVec Ideal S16x4096 .f32) (h : S16x4096.Slices ![14, 0] S1x4096) (p : Fin 4096) :
    extractStridedSlice S1x4096 ![14, 0] y h (ix2 0 p) = y (ix2 14 p) := slice_at y 14 h (by decide) p
theorem slice_15 (y : FVec Ideal S16x4096 .f32) (h : S16x4096.Slices ![15, 0] S1x4096) (p : Fin 4096) :
    extractStridedSlice S1x4096 ![15, 0] y h (ix2 0 p) = y (ix2 15 p) := slice_at y 15 h (by decide) p

/-- Sixteen [1, 4096] rows stacked into a [16, 4096] array, at row `k`, lane `p`: row `k` at lane `p`. -/
theorem cat_row {α : Type} (r : Fin 16 → (S1x4096.Idx → α))
    (hc : Shape.Concatenates ((List.ofFn fun n : Fin 16 => (⟨S1x4096, r n⟩ : (s : Shape) × (s.Idx → α))).map (·.1)) S16x4096 0)
    (k : Fin 16) (p : Fin 4096) :
    concatenate S16x4096 0 (List.ofFn fun n : Fin 16 => (⟨S1x4096, r n⟩ : (s : Shape) × (s.Idx → α))) hc (ix2 k p) = r k (ix2 0 p) :=
  concatenate_ofFn_unit_apply (t := S16x4096) (s₁ := S1x4096) (0 : Fin 2) r hc rfl rfl (ix2 k p) k rfl (ix2 0 p) (fun b hb => match b with
    | ⟨0, _⟩ => absurd rfl hb
    | ⟨1, _⟩ => rfl)

theorem cat_0 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 0 p) = r0 (ix2 0 p) :=
  cat_row ![r0, r1, r2, r3, r4, r5, r6, r7, r8, r9, r10, r11, r12, r13, r14, r15] hc 0 p
theorem cat_1 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 1 p) = r1 (ix2 0 p) :=
  cat_row ![r0, r1, r2, r3, r4, r5, r6, r7, r8, r9, r10, r11, r12, r13, r14, r15] hc 1 p
theorem cat_2 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 2 p) = r2 (ix2 0 p) :=
  cat_row ![r0, r1, r2, r3, r4, r5, r6, r7, r8, r9, r10, r11, r12, r13, r14, r15] hc 2 p
theorem cat_3 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 3 p) = r3 (ix2 0 p) :=
  cat_row ![r0, r1, r2, r3, r4, r5, r6, r7, r8, r9, r10, r11, r12, r13, r14, r15] hc 3 p
theorem cat_4 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 4 p) = r4 (ix2 0 p) :=
  cat_row ![r0, r1, r2, r3, r4, r5, r6, r7, r8, r9, r10, r11, r12, r13, r14, r15] hc 4 p
theorem cat_5 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 5 p) = r5 (ix2 0 p) :=
  cat_row ![r0, r1, r2, r3, r4, r5, r6, r7, r8, r9, r10, r11, r12, r13, r14, r15] hc 5 p
theorem cat_6 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 6 p) = r6 (ix2 0 p) :=
  cat_row ![r0, r1, r2, r3, r4, r5, r6, r7, r8, r9, r10, r11, r12, r13, r14, r15] hc 6 p
theorem cat_7 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 7 p) = r7 (ix2 0 p) :=
  cat_row ![r0, r1, r2, r3, r4, r5, r6, r7, r8, r9, r10, r11, r12, r13, r14, r15] hc 7 p
theorem cat_8 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 8 p) = r8 (ix2 0 p) :=
  cat_row ![r0, r1, r2, r3, r4, r5, r6, r7, r8, r9, r10, r11, r12, r13, r14, r15] hc 8 p
theorem cat_9 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 9 p) = r9 (ix2 0 p) :=
  cat_row ![r0, r1, r2, r3, r4, r5, r6, r7, r8, r9, r10, r11, r12, r13, r14, r15] hc 9 p
theorem cat_10 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 10 p) = r10 (ix2 0 p) :=
  cat_row ![r0, r1, r2, r3, r4, r5, r6, r7, r8, r9, r10, r11, r12, r13, r14, r15] hc 10 p
theorem cat_11 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 11 p) = r11 (ix2 0 p) :=
  cat_row ![r0, r1, r2, r3, r4, r5, r6, r7, r8, r9, r10, r11, r12, r13, r14, r15] hc 11 p
theorem cat_12 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 12 p) = r12 (ix2 0 p) :=
  cat_row ![r0, r1, r2, r3, r4, r5, r6, r7, r8, r9, r10, r11, r12, r13, r14, r15] hc 12 p
theorem cat_13 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 13 p) = r13 (ix2 0 p) :=
  cat_row ![r0, r1, r2, r3, r4, r5, r6, r7, r8, r9, r10, r11, r12, r13, r14, r15] hc 13 p
theorem cat_14 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 14 p) = r14 (ix2 0 p) :=
  cat_row ![r0, r1, r2, r3, r4, r5, r6, r7, r8, r9, r10, r11, r12, r13, r14, r15] hc 14 p
theorem cat_15 {α : Type} (r0 r1 r2 r3 r4 r5 r6 r7 r8 r9 r10 r11 r12 r13 r14 r15 : S1x4096.Idx → α)
    (hc : Shape.Concatenates (([⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] : List ((s : Shape) × (s.Idx → α))).map (·.1)) S16x4096 0) (p : Fin 4096) :
    concatenate S16x4096 0 [⟨S1x4096, r0⟩, ⟨S1x4096, r1⟩, ⟨S1x4096, r2⟩, ⟨S1x4096, r3⟩, ⟨S1x4096, r4⟩, ⟨S1x4096, r5⟩, ⟨S1x4096, r6⟩, ⟨S1x4096, r7⟩, ⟨S1x4096, r8⟩, ⟨S1x4096, r9⟩, ⟨S1x4096, r10⟩, ⟨S1x4096, r11⟩, ⟨S1x4096, r12⟩, ⟨S1x4096, r13⟩, ⟨S1x4096, r14⟩, ⟨S1x4096, r15⟩] hc (ix2 15 p) = r15 (ix2 0 p) :=
  cat_row ![r0, r1, r2, r3, r4, r5, r6, r7, r8, r9, r10, r11, r12, r13, r14, r15] hc 15 p

/-! ## The stored value is the first set row's feature -/

/-- What the body stores at channel `c`, lane `p`, from its four loaded blocks: with the rows' masks `x1[j, p]` and
    features `(∑ k, x0[j, k] * x2[c, k]) + x3[c, 0]`, the feature of the last region whose mask exceeds one half, or 0. -/
theorem body_at (x0 : Vec Ideal S16x512 .f32) (x1 : Vec Ideal S16x4096 .f32) (x2 : Vec Ideal S1280x512 .f32) (x3 : Vec Ideal S1280x1 .f32)
    (c : Fin 1280) (p : Fin 4096) :
    k0_pay1 (k0_pay28 (k0_pay2 x1) (k0_pay5 x1) (k0_pay8 x1) (k0_pay11 x1) (k0_pay14 x1) (k0_pay17 x1) (k0_pay20 x1) (k0_pay23 x1) (k0_pay26 x1) (k0_pay27 x1))
        (k0_pay29 x2 x0 x3) (constant (F := Ideal) S1280x4096 .f32 0x00000000#32) (ix2 c p)
      = firstSet (rowsOf (fun j => x1 (ix2 j p)) (fun j => (∑ k : Fin 512, x0 (ix2 j k) * x2 (ix2 c k)) + x3 (ix2 c 0))) := by
  rw [← weighted_one, map_at, sum_univ_sixteen]
  simp only [proj_at]
  unfold k0_pay28
  simp only [cat_0, cat_1, cat_2, cat_3, cat_4, cat_5, cat_6, cat_7, cat_8, cat_9, cat_10, cat_11, cat_12, cat_13, cat_14, cat_15]
  simp only [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, mulf_apply, subf_apply, broadcast_apply, slice_0, slice_1, slice_2, slice_3, slice_4, slice_5, slice_6, slice_7, slice_8, slice_9, slice_10, slice_11, slice_12, slice_13, slice_14, slice_15, mask_at, one_word]
  unfold rowsOf
  simp only [weighted, zero_add]

end Cert.Inject.Body

end
-- ==== Proof.KernelValue.lean ====
/-
  The array the region leaves, and the program's result.

  The grid has one point and every window's block is its whole array, so the four input blocks are the arrays as the
  region finds them — `region_features`, the masks flattened to [16, 4096], `W_proj`, the bias as a [1280, 1] column —
  and the one write-back leaves the body's stored block as the whole [1280, 4096] output array.
-/
import proofs.«169650_g1486058684825_cont_week2b_673_16_alg».proof.Proof.Gen.KernelIdeal.Frame
import proofs.«169650_g1486058684825_cont_week2b_673_16_alg».proof.Proof.KernelBody
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Inject.Kernel

open Cert.KernelIdeal Cert.KernelIdeal.Gen Idealize.ShloMosaic.ValueIdx Cert.FirstSet Cert.Inject

variable (m : (ℓ : Loc nD τ sig) → Buf (Elt Ideal) ℓ) (ρ : Dev nD → PrngReg)

theorem hz : (![0, 0] : Fin 2 → Nat) = fun _ => 0 := funext fun a => by fin_cases a <;> rfl

/-- The map the region computes from the four arrays it reads: at channel `i 0`, lane `i 1`, the feature of the last
    region whose mask at the lane exceeds one half, or 0. -/
def mapOf (x0 : S16x512.Idx → EReal) (x1 : S16x4096.Idx → EReal) (x2 : S1280x512.Idx → EReal) (x3 : S1280x1.Idx → EReal) :
    S1280x4096.Idx → EReal :=
  fun i => firstSet (rowsOf (fun j => x1 (ix2 j (i 1))) (fun j => (∑ k : Fin 512, x0 (ix2 j k) * x2 (ix2 (i 0) k)) + x3 (ix2 (i 0) 0)))

/-- The body's one store covers the output block, and each load reads its whole input block: the block left is `mapOf`
    of the input blocks. -/
theorem out_eq (x0 : Vec Ideal S16x512 .f32) (x1 : Vec Ideal S16x4096 .f32) (x2 : Vec Ideal S1280x512 .f32) (x3 : Vec Ideal S1280x1 .f32) :
    out0_4 (F := Ideal) x0 x1 x2 x3 = mapOf x0 x1 x2 x3 := by
  unfold out0_4
  rw [View.canon_unit_zero hz]
  simp only [View.ld_unit_zero (S := S16x4096) hz, View.ld_unit_zero (S := S1280x512) hz, View.ld_unit_zero (S := S16x512) hz,
    View.ld_unit_zero (S := S1280x1) hz]
  funext i
  obtain ⟨c, p, rfl⟩ : ∃ (c : Fin 1280) (p : Fin 4096), i = ix2 c p := ⟨i 0, i 1, eq_ix2 i⟩
  exact Body.body_at x0 x1 x2 x3 c p

/-- Each input window's block at the one grid point is its whole array. -/
theorem iblk_0 (c : Dev nD) (t : Fin cfg0.N) : iblk m c 0 t = V m c main_arg1 := by
  obtain rfl := fin_N0 t
  unfold iblk
  have hz' : (fun a => win0_0.index t0_0 a * main_arg1.ty.shape.size a) = fun _ => 0 := funext fun a => by fin_cases a <;> decide
  exact Memref.read_access_unit_zero (Elt Ideal) main_arg1 hz' (fun a => by rw [congrFun hz' a]; simp) (V m c main_arg1)
theorem iblk_1 (c : Dev nD) (t : Fin cfg0.N) : iblk m c 1 t = V m c main_v0 := by
  obtain rfl := fin_N0 t
  unfold iblk
  have hz' : (fun a => win0_1.index t0_0 a * main_v0.ty.shape.size a) = fun _ => 0 := funext fun a => by fin_cases a <;> decide
  exact Memref.read_access_unit_zero (Elt Ideal) main_v0 hz' (fun a => by rw [congrFun hz' a]; simp) (V m c main_v0)
theorem iblk_2 (c : Dev nD) (t : Fin cfg0.N) : iblk m c 2 t = V m c main_arg3 := by
  obtain rfl := fin_N0 t
  unfold iblk
  have hz' : (fun a => win0_2.index t0_0 a * main_arg3.ty.shape.size a) = fun _ => 0 := funext fun a => by fin_cases a <;> decide
  exact Memref.read_access_unit_zero (Elt Ideal) main_arg3 hz' (fun a => by rw [congrFun hz' a]; simp) (V m c main_arg3)
theorem iblk_3 (c : Dev nD) (t : Fin cfg0.N) : iblk m c 3 t = V m c main_v1 := by
  obtain rfl := fin_N0 t
  unfold iblk
  have hz' : (fun a => win0_3.index t0_0 a * main_v1.ty.shape.size a) = fun _ => 0 := funext fun a => by fin_cases a <;> decide
  exact Memref.read_access_unit_zero (Elt Ideal) main_v1 hz' (fun a => by rw [congrFun hz' a]; simp) (V m c main_v1)

/-- What the one point writes back: the whole output array at `mapOf` of the arrays as the region finds them. -/
theorem flushed4 (c : Dev nD) (t : Fin cfg0.N) (hf : (cfg0.win 4).flush t = true) :
    (dats m 0 c).flushed 4 t
      = ((cfg0.win 4).blk t).view.read (Elt Ideal) (mapOf (V m c main_arg1) (V m c main_v0) (V m c main_arg3) (V m c main_v1)) := by
  obtain rfl := fin_N0 t
  show (cfg0.win 4).cut (grid0.coords t0_0) ((dats m 0 c).after 4 t0_0) = _
  rw [after0_4, iblk_0, iblk_1, iblk_2, iblk_3, out_eq]
  have hz' : (fun a => win0_4.index t0_0 a * main_v2.ty.shape.size a) = fun _ => 0 := funext fun a => by fin_cases a <;> decide
  exact (Memref.read_access_unit_zero (Elt Ideal) main_v2 hz' (fun a => by rw [congrFun hz' a]; simp) _).symm

/-- The output array after the run: the one point's block covers it. -/
theorem final4 (c : Dev nD) :
    (dats m 0 c).arrAt 4 cfg0.N = mapOf (V m c main_arg1) (V m c main_v0) (V m c main_arg3) (V m c main_v1) :=
  (dats m 0 c).arrAt_eq_of_cover 4 _ (flushed4 m c) fun i =>
    ⟨t0_0, flush0_4 t0_0, by
      show i ∈ ((View.whole main_v2).slice (win0_4.rect t0_0)).set
      rw [View.set_slice_whole, Rect.mem_set_unit]
      intro a
      have h0 : (i 0 : Nat) < 1280 := (i 0).isLt
      have h1 : (i 1 : Nat) < 4096 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 1280 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 4096 from by decide +kernel]; omega⟩

/-- The host lines before the region: the masks flattened, -/
theorem V_v0 (c : Dev nD) :
    (V m c main_v0 : S16x4096.Idx → EReal) = shapeCast S16x4096 (m ((c : Thread nD τ).loc main_arg2)) shapeCasts_S16x64x64_S16x4096 := by
  show StableHlo.after hostOps0 (fun b => m (c, b)) (Proc.devRef .tc main_v0) = _
  after_results
  rfl

/-- and the bias as a column. -/
theorem V_v1 (c : Dev nD) :
    (V m c main_v1 : S1280x1.Idx → EReal) = shapeCast S1280x1 (m ((c : Thread nD τ).loc main_arg4)) shapeCasts_S1280_S1280x1 := by
  show StableHlo.after hostOps0 (fun b => m (c, b)) (Proc.devRef .tc main_v1) = _
  after_results
  rfl

/-- The region's map at channel `ch` and lane `h * 64 + w` is the specification's map at channel `ch`, pixel `(h, w)`: the
    flattened masks read back at `(j, h, w)`, the bias column at `ch`, the two other operands the arguments themselves. -/
theorem map_read (c : Dev nD) (ch : Fin 1280) (h w : Fin 64) (hp : h.val * 64 + w.val < 4096) :
    mapOf (V m c main_arg1) (V m c main_v0) (V m c main_arg3) (V m c main_v1) (ix2 ch ⟨h.val * 64 + w.val, hp⟩)
      = regionMap (m ((c : Thread nD τ).loc main_arg1)) (m ((c : Thread nD τ).loc main_arg2)) (m ((c : Thread nD τ).loc main_arg3))
          (m ((c : Thread nD τ).loc main_arg4)) ch h w := by
  unfold mapOf regionMap
  refine congrArg₂ (fun μ π => firstSet (rowsOf μ π)) (funext fun j => ?_) (funext fun j => ?_)
  · show (V m c main_v0 : S16x4096.Idx → EReal) (ix2 j ⟨h.val * 64 + w.val, hp⟩) = _
    rw [V_v0]
    exact shapeCast_apply _ shapeCasts_S16x64x64_S16x4096 (ix2 j ⟨h.val * 64 + w.val, hp⟩) (ix3 j h w)
      (by rw [Shape.rowMajor_val_three, Shape.rowMajor_val_two]
          show (j.val * 64 + h.val) * 64 + w.val = j.val * 4096 + (h.val * 64 + w.val); omega)
  · rw [V_main_arg1, V_main_arg3, V_v1]
    unfold proj
    refine congrArg₂ (· + ·) rfl ?_
    exact shapeCast_apply _ shapeCasts_S1280_S1280x1 (ix2 ch 0) (ix1 ch)
      (by rw [Shape.rowMajor_val_one, Shape.rowMajor_val_two]
          show ch.val = ch.val * 1 + 0; omega)

/-- The program's result: after the region the host widens the map, unflattens its lanes to pixels, broadcasts it over the
    batch and adds it to `spatial_features` — the specification, index by index. -/
theorem result_eq (c : Dev nD) :
    Pipeline.afterTail₀ cfgs (dats m) 0 (V0 m) [hostOps1] c main_v7
      = inject (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v7) = _
  after_results
  have hW0 := (Pipeline.withArrays_of_ne (cfgs 0).spec c (V0 m c) (fun w => (dats m 0 c).arrAt w (cfgs 0).N) main_arg0
    (by exact (by decide : ∀ w, Pipeline.arrRef spec0 w ≠ main_arg0))).trans (V_main_arg0 m c)
  have hW2 := (Pipeline.withArrays_arr spec0 launch0.win.arr_inj c (V0 m c) (fun w => (dats m 0 c).arrAt w (cfgs 0).N) 4).trans (final4 m c)
  funext i
  obtain ⟨n, ch, h, w, rfl⟩ : ∃ (n : Fin 4) (ch : Fin 1280) (h w : Fin 64), i = ix4 n ch h w := ⟨i 0, i 1, i 2, i 3, eq_ix4 i⟩
  have hh : h.val < 64 := h.isLt
  have hw : w.val < 64 := w.isLt
  have hp : h.val * 64 + w.val < 4096 := by omega
  have e1 : ∀ Y : S1x1280x64x64.Idx → EReal,
      broadcastInDim S4x1280x64x64 ![0, 1, 2, 3] bcast_S1x1280x64x64_S4x1280x64x64_0_1_2_3 Y (ix4 n ch h w) = Y (ix4 0 ch h w) := fun Y =>
    broadcastInDim_apply _ bcast_S1x1280x64x64_S4x1280x64x64_0_1_2_3 Y (ix4 n ch h w) (ix4 0 ch h w) (fun a => match a with
      | ⟨0, _⟩ => by show 0 = if (1 : Nat) = 1 then 0 else n.val; rw [if_pos rfl]
      | ⟨1, _⟩ => by show ch.val = if (1280 : Nat) = 1 then 0 else ch.val; rw [if_neg (by decide)]
      | ⟨2, _⟩ => by show h.val = if (64 : Nat) = 1 then 0 else h.val; rw [if_neg (by decide)]
      | ⟨3, _⟩ => by show w.val = if (64 : Nat) = 1 then 0 else w.val; rw [if_neg (by decide)])
  have e2 : ∀ Z : S1280x64x64.Idx → EReal,
      broadcastInDim S1x1280x64x64 ![1, 2, 3] bcast_S1280x64x64_S1x1280x64x64_1_2_3 Z (ix4 0 ch h w) = Z (ix3 ch h w) := fun Z =>
    broadcastInDim_apply _ bcast_S1280x64x64_S1x1280x64x64_1_2_3 Z (ix4 0 ch h w) (ix3 ch h w) (fun a => match a with
      | ⟨0, _⟩ => by show ch.val = if (1280 : Nat) = 1 then 0 else ch.val; rw [if_neg (by decide)]
      | ⟨1, _⟩ => by show h.val = if (64 : Nat) = 1 then 0 else h.val; rw [if_neg (by decide)]
      | ⟨2, _⟩ => by show w.val = if (64 : Nat) = 1 then 0 else w.val; rw [if_neg (by decide)])
  have e3 : ∀ U : S1280x4096.Idx → EReal,
      shapeCast S1280x64x64 U shapeCasts_S1280x4096_S1280x64x64 (ix3 ch h w) = U (ix2 ch ⟨h.val * 64 + w.val, hp⟩) := fun U =>
    shapeCast_apply U shapeCasts_S1280x4096_S1280x64x64 (ix3 ch h w) (ix2 ch ⟨h.val * 64 + w.val, hp⟩)
      (by rw [Shape.rowMajor_val_two, Shape.rowMajor_val_three]
          show ch.val * 4096 + (h.val * 64 + w.val) = (ch.val * 64 + h.val) * 64 + w.val; omega)
  rw [addf_apply, e1, e2]
  show _ + shapeCast S1280x64x64 (extf (F := Ideal) .f32
      (Pipeline.withArrays (cfgs 0).spec c (V0 m c) (fun w => (dats m 0 c).arrAt w (cfgs 0).N) (Proc.devRef .tc main_v2)) bitsLt_bf16_f32)
      shapeCasts_S1280x4096_S1280x64x64 (ix3 ch h w) = _
  rw [e3, extf_apply, hW0, hW2, map_read m c ch h w hp]
  rfl

/-- The run, read: every weakly fair execution of the idealized kernel program terminates with its result at the
    specification of the argument arrays, and the arguments unchanged. -/
theorem run : θ_run defs (onTc (τ := τ) (main (F := Ideal))) ⟨m, fun _ => 0, ρ⟩ fun r => ∀ c : Dev nD,
      r.2.mem ((c.tc : Thread nD τ).loc main_v7) = inject (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.Inject.Kernel

end
-- ==== Proof.lean ====
/-
  The certificate: the region-feature injection kernel against its reference, over the extended reals.

  Both programs compute, at batch n, channel c, pixel (h, w),
      spatial_features[n, c, h, w] + proj[j*, c],   proj[j, c] = (∑ k, region_features[j, k] * W_proj[c, k]) + b_proj[c],
  where j* is the LAST region whose mask at (h, w) exceeds one half (the term is 0 if there is none): Proof/Spec.lean.
  The reference overwrites a zero map region by region, so its sixteen nested selects read, outermost first, region 15's
  down to region 0's (Proof/RefIsSpec.lean). The kernel multiplies `proj` by a 0/1 matrix whose column at a pixel has its
  single 1 at j* — row j is the mask bit times the product of the complements of the bits above it — and a sum with one-hot
  weights is the selected term, on the extended reals with no finiteness assumption, since x * 0 = 0 and x * 1 = x for
  every x (Proof/LibFirstSet.lean, Proof/KernelBody.lean). The kernel's change of format to bfloat16 and back is the
  identity on exact values, and its output array, one block at the one grid point, is unflattened, broadcast over the
  batch and added to spatial_features by the host lines after the call (Proof/KernelValue.lean).
  No rewrite was applied when the kernel was idealized, so the idealization claim is trivial; the three frame claims are
  the generated frame runs.
-/
import proofs.«169650_g1486058684825_cont_week2b_673_16_alg».proof.Defs
import proofs.«169650_g1486058684825_cont_week2b_673_16_alg».proof.Proof.Gen.Kernel
import proofs.«169650_g1486058684825_cont_week2b_673_16_alg».proof.Proof.Gen.Kernel.Skeleton
import proofs.«169650_g1486058684825_cont_week2b_673_16_alg».proof.Proof.Gen.Kernel.Launch
import proofs.«169650_g1486058684825_cont_week2b_673_16_alg».proof.Proof.Gen.Kernel.Points
import proofs.«169650_g1486058684825_cont_week2b_673_16_alg».proof.Proof.Gen.Kernel.Frame
import proofs.«169650_g1486058684825_cont_week2b_673_16_alg».proof.Proof.Gen.KernelIdeal
import proofs.«169650_g1486058684825_cont_week2b_673_16_alg».proof.Proof.Gen.KernelIdeal.Skeleton
import proofs.«169650_g1486058684825_cont_week2b_673_16_alg».proof.Proof.Gen.KernelIdeal.Launch
import proofs.«169650_g1486058684825_cont_week2b_673_16_alg».proof.Proof.Gen.KernelIdeal.Points
import proofs.«169650_g1486058684825_cont_week2b_673_16_alg».proof.Proof.Gen.KernelIdeal.Frame
import proofs.«169650_g1486058684825_cont_week2b_673_16_alg».proof.Proof.Gen.ReferenceIdeal
import proofs.«169650_g1486058684825_cont_week2b_673_16_alg».proof.Proof.Gen.Pre_finite_inputs
import proofs.«169650_g1486058684825_cont_week2b_673_16_alg».proof.Proof.RefReadP
import proofs.«169650_g1486058684825_cont_week2b_673_16_alg».proof.Proof.RefIsSpec
import proofs.«169650_g1486058684825_cont_week2b_673_16_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with their result at the specification of their (agreeing) arguments. -/
theorem algebraic : Cert.algebraic_KernelIdeal_ReferenceIdeal := by
  intro m ρ m' ρ' _ hagree
  refine ⟨_, Cert.Inject.Kernel.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v150_eq, Cert.Inject.Ref.ref_is_spec, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
